-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50 : Shape := ⟨2, ![64, 50]⟩
abbrev S1x192x256x2 : Shape := ⟨4, ![1, 192, 256, 2]⟩
abbrev S28x28 : Shape := ⟨2, ![28, 28]⟩
abbrev S25 : Shape := ⟨1, ![25]⟩
abbrev S_ : Shape := ⟨0, ![]⟩

class Facts : Prop where
  bcast_S_S64x50 : S_.BroadcastsInDim S64x50 (![] : Fin 0 → Fin S64x50.rank)
  reducesTo_S64x50_S_d0_1 : S64x50.ReducesTo [0, 1] S_
  h_S_ : 0 < S_.numel
  bcast_S_S1x192x256x2 : S_.BroadcastsInDim S1x192x256x2 (![] : Fin 0 → Fin S1x192x256x2.rank)
  reducesTo_S1x192x256x2_S_d0_1_2_3 : S1x192x256x2.ReducesTo [0, 1, 2, 3] S_
  bcast_S_S28x28 : S_.BroadcastsInDim S28x28 (![] : Fin 0 → Fin S28x28.rank)
  reducesTo_S28x28_S_d0_1 : S28x28.ReducesTo [0, 1] S_
  bcast_S_S25 : S_.BroadcastsInDim S25 (![] : Fin 0 → Fin S25.rank)
  reducesTo_S25_S_d0 : S25.ReducesTo [0] S_

variable [Facts]

def fn_part1 {F : FTy → Type} [FloatOps F] (main_arg4 : FVec F S25 .f32) (main_v13 : IVec S_ 1) (main_v16 : IVec S25 1) : IVec S_ 1 :=
  let main_c_5 : IVec S_ 1 := constantI S_ 1 1#1
  let main_v17 : IVec S_ 1 := (fun x v => Host.reduce IntOp.andi x v reducesTo_S25_S_d0 h_S_) main_v16 main_c_5
  let main_v18 : IVec S_ 1 := andi main_v13 main_v17
  let main_v19 : FVec F S25 .f32 := Host.absf main_arg4
  let main_cst_6 : FVec F S_ .f32 := constant S_ .f32 0x7F800000#32
  let main_v20 : FVec F S25 .f32 := broadcastInDim S25 ![] bcast_S_S25 main_cst_6
  let main_v21 : IVec S25 1 := cmpf .olt main_v19 main_v20
  let main_c_7 : IVec S_ 1 := constantI S_ 1 1#1
  let main_v22 : IVec S_ 1 := (fun x v => Host.reduce IntOp.andi x v reducesTo_S25_S_d0 h_S_) main_v21 main_c_7
  let main_v23 : IVec S_ 1 := andi main_v18 main_v22
  main_v23

def fn {F : FTy → Type} [FloatOps F] (main_arg0 : FVec F S64x50 .f32) (main_arg1 : FVec F S1x192x256x2 .f32) (main_arg2 : FVec F S28x28 .f32) (main_arg3 : FVec F S25 .f32) (main_arg4 : FVec F S25 .f32) : IVec S_ 1 :=
  let main_v0 : FVec F S64x50 .f32 := Host.absf main_arg0
  let main_cst : FVec F S_ .f32 := constant S_ .f32 0x7F800000#32
  let main_v1 : FVec F S64x50 .f32 := broadcastInDim S64x50 ![] bcast_S_S64x50 main_cst
  let main_v2 : IVec S64x50 1 := cmpf .olt main_v0 main_v1
  let main_c : IVec S_ 1 := constantI S_ 1 1#1
  let main_v3 : IVec S_ 1 := (fun x v => Host.reduce IntOp.andi x v reducesTo_S64x50_S_d0_1 h_S_) main_v2 main_c
  let main_v4 : FVec F S1x192x256x2 .f32 := Host.absf main_arg1
  let main_cst_0 : FVec F S_ .f32 := constant S_ .f32 0x7F800000#32
  let main_v5 : FVec F S1x192x256x2 .f32 := broadcastInDim S1x192x256x2 ![] bcast_S_S1x192x256x2 main_cst_0
  let main_v6 : IVec S1x192x256x2 1 := cmpf .olt main_v4 main_v5
  let main_c_1 : IVec S_ 1 := constantI S_ 1 1#1
  let main_v7 : IVec S_ 1 := (fun x v => Host.reduce IntOp.andi x v reducesTo_S1x192x256x2_S_d0_1_2_3 h_S_) main_v6 main_c_1
  let main_v8 : IVec S_ 1 := andi main_v3 main_v7
  let main_v9 : FVec F S28x28 .f32 := Host.absf main_arg2
  let main_cst_2 : FVec F S_ .f32 := constant S_ .f32 0x7F800000#32
  let main_v10 : FVec F S28x28 .f32 := broadcastInDim S28x28 ![] bcast_S_S28x28 main_cst_2
  let main_v11 : IVec S28x28 1 := cmpf .olt main_v9 main_v10
  let main_c_3 : IVec S_ 1 := constantI S_ 1 1#1
  let main_v12 : IVec S_ 1 := (fun x v => Host.reduce IntOp.andi x v reducesTo_S28x28_S_d0_1 h_S_) main_v11 main_c_3
  let main_v13 : IVec S_ 1 := andi main_v8 main_v12
  let main_v14 : FVec F S25 .f32 := Host.absf main_arg3
  let main_cst_4 : FVec F S_ .f32 := constant S_ .f32 0x7F800000#32
  let main_v15 : FVec F S25 .f32 := broadcastInDim S25 ![] bcast_S_S25 main_cst_4
  let main_v16 : IVec S25 1 := cmpf .olt main_v14 main_v15
  fn_part1 (F := F) main_arg4 main_v13 main_v16
-- ==== Kernel.lean ====
abbrev S64x50 : Shape := ⟨2, ![64, 50]⟩
abbrev S1x192x256x2 : Shape := ⟨4, ![1, 192, 256, 2]⟩
abbrev S28x28 : Shape := ⟨2, ![28, 28]⟩
abbrev S25 : Shape := ⟨1, ![25]⟩
abbrev S64x25 : Shape := ⟨2, ![64, 25]⟩
abbrev S1x25 : Shape := ⟨2, ![1, 25]⟩
abbrev S25x25 : Shape := ⟨2, ![25, 25]⟩
abbrev S3x25 : Shape := ⟨2, ![3, 25]⟩
abbrev S64x3 : Shape := ⟨2, ![64, 3]⟩
abbrev S1x192x256x1 : Shape := ⟨4, ![1, 192, 256, 1]⟩
abbrev S192x256 : Shape := ⟨2, ![192, 256]⟩
abbrev S25x1 : Shape := ⟨2, ![25, 1]⟩
abbrev S64x192x256 : Shape := ⟨3, ![64, 192, 256]⟩
abbrev S32x256 : Shape := ⟨2, ![32, 256]⟩
abbrev S64x32x256 : Shape := ⟨3, ![64, 32, 256]⟩
abbrev S25x1x1 : Shape := ⟨3, ![25, 1, 1]⟩
abbrev S1x32x256 : Shape := ⟨3, ![1, 32, 256]⟩
abbrev S25x32x256 : Shape := ⟨3, ![25, 32, 256]⟩
abbrev S25x8192 : Shape := ⟨2, ![25, 8192]⟩
abbrev S64x8192 : Shape := ⟨2, ![64, 8192]⟩
abbrev S64x1 : Shape := ⟨2, ![64, 1]⟩
abbrev S64x1x1 : Shape := ⟨3, ![64, 1, 1]⟩
abbrev S64x192x256x1 : Shape := ⟨4, ![64, 192, 256, 1]⟩
abbrev S64x192x256x2 : Shape := ⟨4, ![64, 192, 256, 2]⟩

abbrev nBuf : Space → Nat
  | .hbm => 32
  | .vmem => 14
  | .smem => 0
  | _ => 0

abbrev bufTy : (tb : Table) → Fin (tcTables nBuf tb) → BufTy
  | .hbm, ⟨0, _⟩ => ⟨S64x50, .f32⟩
  | .hbm, ⟨1, _⟩ => ⟨S1x192x256x2, .f32⟩
  | .hbm, ⟨2, _⟩ => ⟨S28x28, .f32⟩
  | .hbm, ⟨3, _⟩ => ⟨S25, .f32⟩
  | .hbm, ⟨4, _⟩ => ⟨S25, .f32⟩
  | .hbm, ⟨5, _⟩ => ⟨S64x25, .f32⟩
  | .hbm, ⟨6, _⟩ => ⟨S1x25, .f32⟩
  | .hbm, ⟨7, _⟩ => ⟨S64x25, .f32⟩
  | .hbm, ⟨8, _⟩ => ⟨S64x25, .f32⟩
  | .hbm, ⟨9, _⟩ => ⟨S64x25, .f32⟩
  | .hbm, ⟨10, _⟩ => ⟨S1x25, .f32⟩
  | .hbm, ⟨11, _⟩ => ⟨S64x25, .f32⟩
  | .hbm, ⟨12, _⟩ => ⟨S64x25, .f32⟩
  | .hbm, ⟨13, _⟩ => ⟨S25x25, .f32⟩
  | .hbm, ⟨14, _⟩ => ⟨S64x25, .f32⟩
  | .hbm, ⟨15, _⟩ => ⟨S25x25, .f32⟩
  | .hbm, ⟨16, _⟩ => ⟨S64x25, .f32⟩
  | .hbm, ⟨17, _⟩ => ⟨S3x25, .f32⟩
  | .hbm, ⟨18, _⟩ => ⟨S64x3, .f32⟩
  | .hbm, ⟨19, _⟩ => ⟨S3x25, .f32⟩
  | .hbm, ⟨20, _⟩ => ⟨S64x3, .f32⟩
  | .hbm, ⟨21, _⟩ => ⟨S1x192x256x1, .f32⟩
  | .hbm, ⟨22, _⟩ => ⟨S192x256, .f32⟩
  | .hbm, ⟨23, _⟩ => ⟨S1x192x256x1, .f32⟩
  | .hbm, ⟨24, _⟩ => ⟨S192x256, .f32⟩
  | .hbm, ⟨25, _⟩ => ⟨S25x1, .f32⟩
  | .hbm, ⟨26, _⟩ => ⟨S25x1, .f32⟩
  | .hbm, ⟨27, _⟩ => ⟨S64x192x256, .f32⟩
  | .hbm, ⟨28, _⟩ => ⟨S64x192x256, .f32⟩
  | .hbm, ⟨29, _⟩ => ⟨S64x192x256x1, .f32⟩
  | .hbm, ⟨30, _⟩ => ⟨S64x192x256x1, .f32⟩
  | .hbm, ⟨31, _⟩ => ⟨S64x192x256x2, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S25x1, .f32⟩
  | .local _ .vmem, ⟨5, _⟩ => ⟨S25x1, .f32⟩
  | .local _ .vmem, ⟨6, _⟩ => ⟨S64x25, .f32⟩
  | .local _ .vmem, ⟨7, _⟩ => ⟨S64x25, .f32⟩
  | .local _ .vmem, ⟨8, _⟩ => ⟨S64x3, .f32⟩
  | .local _ .vmem, ⟨9, _⟩ => ⟨S64x3, .f32⟩
  | .local _ .vmem, ⟨10, _⟩ => ⟨S64x32x256, .f32⟩
  | .local _ .vmem, ⟨11, _⟩ => ⟨S64x32x256, .f32⟩
  | .local _ .vmem, ⟨12, _⟩ => ⟨S64x32x256, .f32⟩
  | .local _ .vmem, ⟨13, _⟩ => ⟨S64x32x256, .f32⟩
  | _, _ => ⟨S64x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S25x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S25x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S64x50_S64x25_0_0 : S64x50.Slices ![0, 0] S64x25
  bcast_S25_S1x25_1 : S25.BroadcastsInDim S1x25 (![1] : Fin 1 → Fin S1x25.rank)
  bcast_S1x25_S64x25_0_1 : S1x25.BroadcastsInDim S64x25 (![0, 1] : Fin 2 → Fin S64x25.rank)
  slices_S64x50_S64x25_0_25 : S64x50.Slices ![0, 25] S64x25
  slices_S28x28_S25x25_0_0 : S28x28.Slices ![0, 0] S25x25
  slices_S28x28_S3x25_25_0 : S28x28.Slices ![25, 0] S3x25
  slices_S1x192x256x2_S1x192x256x1_0_0_0_0 : S1x192x256x2.Slices ![0, 0, 0, 0] S1x192x256x1
  shapeCasts_S1x192x256x1_S192x256 : S1x192x256x1.ShapeCasts S192x256
  slices_S1x192x256x2_S1x192x256x1_0_0_0_1 : S1x192x256x2.Slices ![0, 0, 0, 1] S1x192x256x1
  shapeCasts_S25_S25x1 : S25.ShapeCasts S25x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S25x1_S25x1_0_0 : ∀ a, (![0, 0] : Fin 2 → Nat) a + S25x1.size a ≤ S25x1.size a
  h_S25x1 : 0 < S25x1.numel
  shapeCasts_S25x1_S25x1 : S25x1.ShapeCasts S25x1
  shapeCasts_S25x1_S25x1x1 : S25x1.ShapeCasts S25x1x1
  shapeCasts_S32x256_S1x32x256 : S32x256.ShapeCasts S1x32x256
  broadcasts_S1x32x256_S25x32x256 : S1x32x256.Broadcasts S25x32x256
  broadcasts_S25x1x1_S25x32x256 : S25x1x1.Broadcasts S25x32x256
  shapeCasts_S25x32x256_S25x8192 : S25x32x256.ShapeCasts S25x8192
  inb_S64x25_S64x25_0_0 : ∀ a, (![0, 0] : Fin 2 → Nat) a + S64x25.size a ≤ S64x25.size a
  h_S64x25 : 0 < S64x25.numel
  shapeCasts_S64x25_S64x25 : S64x25.ShapeCasts S64x25
  shapeCasts_S64x8192_S64x32x256 : S64x8192.ShapeCasts S64x32x256
  inb_S64x3_S64x3_0_0 : ∀ a, (![0, 0] : Fin 2 → Nat) a + S64x3.size a ≤ S64x3.size a
  h_S64x3 : 0 < S64x3.numel
  shapeCasts_S64x3_S64x3 : S64x3.ShapeCasts S64x3
  slices_S64x3_o0_0_S64x1 : S64x3.Slices ![0, 0] S64x1
  shapeCasts_S64x1_S64x1x1 : S64x1.ShapeCasts S64x1x1
  slices_S64x3_o0_1_S64x1 : S64x3.Slices ![0, 1] S64x1
  slices_S64x3_o0_2_S64x1 : S64x3.Slices ![0, 2] S64x1
  broadcasts_S64x1x1_S64x32x256 : S64x1x1.Broadcasts S64x32x256
  broadcasts_S1x32x256_S64x32x256 : S1x32x256.Broadcasts S64x32x256
  inb_S64x32x256_S64x32x256_0_0_0 : ∀ a, (![0, 0, 0] : Fin 3 → Nat) a + S64x32x256.size a ≤ S64x32x256.size a
  h_S64x32x256 : 0 < S64x32x256.numel
  bcast_S64x192x256_S64x192x256x1_0_1_2 : S64x192x256.BroadcastsInDim S64x192x256x1 (![0, 1, 2] : Fin 3 → Fin S64x192x256x1.rank)
  concatenates_S64x192x256x1_S64x192x256x1_S64x192x256x2_d3 : Shape.Concatenates [S64x192x256x1, S64x192x256x1] S64x192x256x2 3
  dot_S64x25_S25x25_S64x25_1_1_0_0_n_n_wf : DotDims.WF S64x25 S25x25 S64x25 [1] [1] [0] [0] [] []
  dot_S64x25_S3x25_S64x3_1_1_0_0_n_n_wf : DotDims.WF S64x25 S3x25 S64x3 [1] [1] [0] [0] [] []
  dot_S64x25_S25x8192_S64x8192_1_0_0_1_n_n_wf : DotDims.WF S64x25 S25x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S192x256.size a
  hwx0_0 : ∀ i : grid0.Coords, EltTy.bits .f32 = 32 ∨ (Rect.block (s := S192x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S192x256.size a
  hwx0_1 : ∀ i : grid0.Coords, EltTy.bits .f32 = 32 ∨ (Rect.block (s := S192x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x1.size a ≤ S25x1.size a
  hwx0_2 : ∀ i : grid0.Coords, EltTy.bits .f32 = 32 ∨ (Rect.block (s := S25x1) S25x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x1.size a ≤ S25x1.size a
  hwx0_3 : ∀ i : grid0.Coords, EltTy.bits .f32 = 32 ∨ (Rect.block (s := S25x1) S25x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x25.size a ≤ S64x25.size a
  hwx0_4 : ∀ i : grid0.Coords, EltTy.bits .f32 = 32 ∨ (Rect.block (s := S64x25) S64x25.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x25.size a ≤ S64x25.size a
  hwx0_5 : ∀ i : grid0.Coords, EltTy.bits .f32 = 32 ∨ (Rect.block (s := S64x25) S64x25.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x3.size a ≤ S64x3.size a
  hwx0_6 : ∀ i : grid0.Coords, EltTy.bits .f32 = 32 ∨ (Rect.block (s := S64x3) S64x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x32x256.size a ≤ S64x192x256.size a
  hwx0_8 : ∀ i : grid0.Coords, EltTy.bits .f32 = 32 ∨ (Rect.block (s := S64x192x256) S64x32x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x32x256.size a ≤ S64x192x256.size a
  hwx0_9 : ∀ i : grid0.Coords, EltTy.bits .f32 = 32 ∨ (Rect.block (s := S64x192x256) S64x32x256.size (cc0_transform_9 i) (hinb0_9 i)).WholeWords (EltTy.packing .f32)

variable [Facts₀]

def dot_S64x25_S25x25_S64x25_1_1_0_0_n_n : DotDims S64x25 S25x25 S64x25 where
  lhsContracting := [1]
  rhsContracting := [1]
  lhsNonContracting := [0]
  rhsNonContracting := [0]
  lhsBatch := []
  rhsBatch := []
  wf := dot_S64x25_S25x25_S64x25_1_1_0_0_n_n_wf
def dot_S64x25_S3x25_S64x3_1_1_0_0_n_n : DotDims S64x25 S3x25 S64x3 where
  lhsContracting := [1]
  rhsContracting := [1]
  lhsNonContracting := [0]
  rhsNonContracting := [0]
  lhsBatch := []
  rhsBatch := []
  wf := dot_S64x25_S3x25_S64x3_1_1_0_0_n_n_wf
def dot_S64x25_S25x8192_S64x8192_1_0_0_1_n_n : DotDims S64x25 S25x8192 S64x8192 where
  lhsContracting := [1]
  rhsContracting := [0]
  lhsNonContracting := [0]
  rhsNonContracting := [1]
  lhsBatch := []
  rhsBatch := []
  wf := dot_S64x25_S25x8192_S64x8192_1_0_0_1_n_n_wf

abbrev win0_0 : Pipeline.Window sig grid0 :=
  Pipeline.Window.ofSpec (Memref.whole main_v17) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S25x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S25x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x25.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_0) S64x32x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_1) S64x32x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x50 : Shape := ⟨2, ![64, 50]⟩
abbrev S1x192x256x2 : Shape := ⟨4, ![1, 192, 256, 2]⟩
abbrev S28x28 : Shape := ⟨2, ![28, 28]⟩
abbrev S25 : Shape := ⟨1, ![25]⟩
abbrev S64x25 : Shape := ⟨2, ![64, 25]⟩
abbrev S1x25 : Shape := ⟨2, ![1, 25]⟩
abbrev S25x25 : Shape := ⟨2, ![25, 25]⟩
abbrev S3x25 : Shape := ⟨2, ![3, 25]⟩
abbrev S64x3 : Shape := ⟨2, ![64, 3]⟩
abbrev S1x192x256x1 : Shape := ⟨4, ![1, 192, 256, 1]⟩
abbrev S192x256 : Shape := ⟨2, ![192, 256]⟩
abbrev S192x256x1 : Shape := ⟨3, ![192, 256, 1]⟩
abbrev S1x1x25 : Shape := ⟨3, ![1, 1, 25]⟩
abbrev S192x256x25 : Shape := ⟨3, ![192, 256, 25]⟩
abbrev S_ : Shape := ⟨0, ![]⟩
abbrev S64x1 : Shape := ⟨2, ![64, 1]⟩
abbrev S64 : Shape := ⟨1, ![64]⟩
abbrev S64x1x1 : Shape := ⟨3, ![64, 1, 1]⟩
abbrev S1x192x256 : Shape := ⟨3, ![1, 192, 256]⟩
abbrev S64x192x256 : Shape := ⟨3, ![64, 192, 256]⟩
abbrev S64x192x256x1 : Shape := ⟨4, ![64, 192, 256, 1]⟩
abbrev S64x192x256x2 : Shape := ⟨4, ![64, 192, 256, 2]⟩

abbrev nBuf : Space → Nat
  | .hbm => 94
  | .vmem => 0
  | .smem => 0
  | _ => 0

abbrev bufTy : (tb : Table) → Fin (tcTables nBuf tb) → BufTy
  | .hbm, ⟨0, _⟩ => ⟨S64x50, .f32⟩
  | .hbm, ⟨1, _⟩ => ⟨S1x192x256x2, .f32⟩
  | .hbm, ⟨2, _⟩ => ⟨S28x28, .f32⟩
  | .hbm, ⟨3, _⟩ => ⟨S25, .f32⟩
  | .hbm, ⟨4, _⟩ => ⟨S25, .f32⟩
  | .hbm, ⟨5, _⟩ => ⟨S64x25, .f32⟩
  | .hbm, ⟨6, _⟩ => ⟨S1x25, .f32⟩
  | .hbm, ⟨7, _⟩ => ⟨S64x25, .f32⟩
  | .hbm, ⟨8, _⟩ => ⟨S64x25, .f32⟩
  | .hbm, ⟨9, _⟩ => ⟨S64x25, .f32⟩
  | .hbm, ⟨10, _⟩ => ⟨S1x25, .f32⟩
  | .hbm, ⟨11, _⟩ => ⟨S64x25, .f32⟩
  | .hbm, ⟨12, _⟩ => ⟨S64x25, .f32⟩
  | .hbm, ⟨13, _⟩ => ⟨S25x25, .f32⟩
  | .hbm, ⟨14, _⟩ => ⟨S64x25, .f32⟩
  | .hbm, ⟨15, _⟩ => ⟨S25x25, .f32⟩
  | .hbm, ⟨16, _⟩ => ⟨S64x25, .f32⟩
  | .hbm, ⟨17, _⟩ => ⟨S3x25, .f32⟩
  | .hbm, ⟨18, _⟩ => ⟨S64x3, .f32⟩
  | .hbm, ⟨19, _⟩ => ⟨S3x25, .f32⟩
  | .hbm, ⟨20, _⟩ => ⟨S64x3, .f32⟩
  | .hbm, ⟨21, _⟩ => ⟨S1x192x256x1, .f32⟩
  | .hbm, ⟨22, _⟩ => ⟨S192x256, .f32⟩
  | .hbm, ⟨23, _⟩ => ⟨S1x192x256x1, .f32⟩
  | .hbm, ⟨24, _⟩ => ⟨S192x256, .f32⟩
  | .hbm, ⟨25, _⟩ => ⟨S192x256x1, .f32⟩
  | .hbm, ⟨26, _⟩ => ⟨S1x1x25, .f32⟩
  | .hbm, ⟨27, _⟩ => ⟨S192x256x25, .f32⟩
  | .hbm, ⟨28, _⟩ => ⟨S192x256x25, .f32⟩
  | .hbm, ⟨29, _⟩ => ⟨S192x256x25, .f32⟩
  | .hbm, ⟨30, _⟩ => ⟨S192x256x1, .f32⟩
  | .hbm, ⟨31, _⟩ => ⟨S1x1x25, .f32⟩
  | .hbm, ⟨32, _⟩ => ⟨S192x256x25, .f32⟩
  | .hbm, ⟨33, _⟩ => ⟨S192x256x25, .f32⟩
  | .hbm, ⟨34, _⟩ => ⟨S192x256x25, .f32⟩
  | .hbm, ⟨35, _⟩ => ⟨S192x256x25, .f32⟩
  | .hbm, ⟨36, _⟩ => ⟨S192x256x25, .f32⟩
  | .hbm, ⟨37, _⟩ => ⟨S192x256x25, .f32⟩
  | .hbm, ⟨38, _⟩ => ⟨S_, .f32⟩
  | .hbm, ⟨39, _⟩ => ⟨S192x256x25, .f32⟩
  | .hbm, ⟨40, _⟩ => ⟨S192x256x25, .i1⟩
  | .hbm, ⟨41, _⟩ => ⟨S_, .f32⟩
  | .hbm, ⟨42, _⟩ => ⟨S_, .f32⟩
  | .hbm, ⟨43, _⟩ => ⟨S192x256x25, .f32⟩
  | .hbm, ⟨44, _⟩ => ⟨S192x256x25, .f32⟩
  | .hbm, ⟨45, _⟩ => ⟨S192x256x25, .f32⟩
  | .hbm, ⟨46, _⟩ => ⟨S192x256x25, .f32⟩
  | .hbm, ⟨47, _⟩ => ⟨S64x1, .f32⟩
  | .hbm, ⟨48, _⟩ => ⟨S64, .f32⟩
  | .hbm, ⟨49, _⟩ => ⟨S64x1x1, .f32⟩
  | .hbm, ⟨50, _⟩ => ⟨S64x1, .f32⟩
  | .hbm, ⟨51, _⟩ => ⟨S64, .f32⟩
  | .hbm, ⟨52, _⟩ => ⟨S64x1x1, .f32⟩
  | .hbm, ⟨53, _⟩ => ⟨S1x192x256, .f32⟩
  | .hbm, ⟨54, _⟩ => ⟨S64x192x256, .f32⟩
  | .hbm, ⟨55, _⟩ => ⟨S64x192x256, .f32⟩
  | .hbm, ⟨56, _⟩ => ⟨S64x192x256, .f32⟩
  | .hbm, ⟨57, _⟩ => ⟨S64x192x256, .f32⟩
  | .hbm, ⟨58, _⟩ => ⟨S64x192x256, .f32⟩
  | .hbm, ⟨59, _⟩ => ⟨S64x1, .f32⟩
  | .hbm, ⟨60, _⟩ => ⟨S64, .f32⟩
  | .hbm, ⟨61, _⟩ => ⟨S64x1x1, .f32⟩
  | .hbm, ⟨62, _⟩ => ⟨S1x192x256, .f32⟩
  | .hbm, ⟨63, _⟩ => ⟨S64x192x256, .f32⟩
  | .hbm, ⟨64, _⟩ => ⟨S64x192x256, .f32⟩
  | .hbm, ⟨65, _⟩ => ⟨S64x192x256, .f32⟩
  | .hbm, ⟨66, _⟩ => ⟨S64x192x256, .f32⟩
  | .hbm, ⟨67, _⟩ => ⟨S64x192x256, .f32⟩
  | .hbm, ⟨68, _⟩ => ⟨S64x192x256, .f32⟩
  | .hbm, ⟨69, _⟩ => ⟨S64x1, .f32⟩
  | .hbm, ⟨70, _⟩ => ⟨S64, .f32⟩
  | .hbm, ⟨71, _⟩ => ⟨S64x1x1, .f32⟩
  | .hbm, ⟨72, _⟩ => ⟨S64x1, .f32⟩
  | .hbm, ⟨73, _⟩ => ⟨S64, .f32⟩
  | .hbm, ⟨74, _⟩ => ⟨S64x1x1, .f32⟩
  | .hbm, ⟨75, _⟩ => ⟨S1x192x256, .f32⟩
  | .hbm, ⟨76, _⟩ => ⟨S64x192x256, .f32⟩
  | .hbm, ⟨77, _⟩ => ⟨S64x192x256, .f32⟩
  | .hbm, ⟨78, _⟩ => ⟨S64x192x256, .f32⟩
  | .hbm, ⟨79, _⟩ => ⟨S64x192x256, .f32⟩
  | .hbm, ⟨80, _⟩ => ⟨S64x192x256, .f32⟩
  | .hbm, ⟨81, _⟩ => ⟨S64x1, .f32⟩
  | .hbm, ⟨82, _⟩ => ⟨S64, .f32⟩
  | .hbm, ⟨83, _⟩ => ⟨S64x1x1, .f32⟩
  | .hbm, ⟨84, _⟩ => ⟨S1x192x256, .f32⟩
  | .hbm, ⟨85, _⟩ => ⟨S64x192x256, .f32⟩
  | .hbm, ⟨86, _⟩ => ⟨S64x192x256, .f32⟩
  | .hbm, ⟨87, _⟩ => ⟨S64x192x256, .f32⟩
  | .hbm, ⟨88, _⟩ => ⟨S64x192x256, .f32⟩
  | .hbm, ⟨89, _⟩ => ⟨S64x192x256, .f32⟩
  | .hbm, ⟨90, _⟩ => ⟨S64x192x256, .f32⟩
  | .hbm, ⟨91, _⟩ => ⟨S64x192x256x1, .f32⟩
  | .hbm, ⟨92, _⟩ => ⟨S64x192x256x1, .f32⟩
  | .hbm, ⟨93, _⟩ => ⟨S64x192x256x2, .f32⟩
  | _, _ => ⟨S64x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_v33 : Ref sig .tc := ⟨.hbm, 39, rfl⟩
abbrev main_v34 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩

abbrev nD : Nat := 1
abbrev τ : Topo := Topo.v7x

variable {F : FTy → Type} [FloatOps F]

class Facts₀ : Prop where
  slices_S64x50_S64x25_0_0 : S64x50.Slices ![0, 0] S64x25
  bcast_S25_S1x25_1 : S25.BroadcastsInDim S1x25 (![1] : Fin 1 → Fin S1x25.rank)
  bcast_S1x25_S64x25_0_1 : S1x25.BroadcastsInDim S64x25 (![0, 1] : Fin 2 → Fin S64x25.rank)
  slices_S64x50_S64x25_0_25 : S64x50.Slices ![0, 25] S64x25
  slices_S28x28_S25x25_0_0 : S28x28.Slices ![0, 0] S25x25
  slices_S28x28_S3x25_25_0 : S28x28.Slices ![25, 0] S3x25
  slices_S1x192x256x2_S1x192x256x1_0_0_0_0 : S1x192x256x2.Slices ![0, 0, 0, 0] S1x192x256x1
  shapeCasts_S1x192x256x1_S192x256 : S1x192x256x1.ShapeCasts S192x256
  slices_S1x192x256x2_S1x192x256x1_0_0_0_1 : S1x192x256x2.Slices ![0, 0, 0, 1] S1x192x256x1
  bcast_S192x256_S192x256x1_0_1 : S192x256.BroadcastsInDim S192x256x1 (![0, 1] : Fin 2 → Fin S192x256x1.rank)
  bcast_S25_S1x1x25_2 : S25.BroadcastsInDim S1x1x25 (![2] : Fin 1 → Fin S1x1x25.rank)
  bcast_S192x256x1_S192x256x25_0_1_2 : S192x256x1.BroadcastsInDim S192x256x25 (![0, 1, 2] : Fin 3 → Fin S192x256x25.rank)
  bcast_S1x1x25_S192x256x25_0_1_2 : S1x1x25.BroadcastsInDim S192x256x25 (![0, 1, 2] : Fin 3 → Fin S192x256x25.rank)
  bcast_S_S192x256x25 : S_.BroadcastsInDim S192x256x25 (![] : Fin 0 → Fin S192x256x25.rank)
  slices_S64x3_S64x1_0_0 : S64x3.Slices ![0, 0] S64x1
  shapeCasts_S64x1_S64 : S64x1.ShapeCasts S64
  bcast_S64_S64x1x1_0 : S64.BroadcastsInDim S64x1x1 (![0] : Fin 1 → Fin S64x1x1.rank)
  slices_S64x3_S64x1_0_1 : S64x3.Slices ![0, 1] S64x1
  bcast_S192x256_S1x192x256_1_2 : S192x256.BroadcastsInDim S1x192x256 (![1, 2] : Fin 2 → Fin S1x192x256.rank)
  bcast_S64x1x1_S64x192x256_0_1_2 : S64x1x1.BroadcastsInDim S64x192x256 (![0, 1, 2] : Fin 3 → Fin S64x192x256.rank)
  bcast_S1x192x256_S64x192x256_0_1_2 : S1x192x256.BroadcastsInDim S64x192x256 (![0, 1, 2] : Fin 3 → Fin S64x192x256.rank)
  slices_S64x3_S64x1_0_2 : S64x3.Slices ![0, 2] S64x1
  bcast_S64x192x256_S64x192x256x1_0_1_2 : S64x192x256.BroadcastsInDim S64x192x256x1 (![0, 1, 2] : Fin 3 → Fin S64x192x256x1.rank)
  concatenates_S64x192x256x1_S64x192x256x1_S64x192x256x2_d3 : Shape.Concatenates [S64x192x256x1, S64x192x256x1] S64x192x256x2 3
  dot_S64x25_S25x25_S64x25_1_1_0_0_n_n_wf : DotDims.WF S64x25 S25x25 S64x25 [1] [1] [0] [0] [] []
  dot_S64x25_S3x25_S64x3_1_1_0_0_n_n_wf : DotDims.WF S64x25 S3x25 S64x3 [1] [1] [0] [0] [] []
  dot_S64x25_S192x256x25_S64x192x256_1_2_0_01_n_n_wf : DotDims.WF S64x25 S192x256x25 S64x192x256 [1] [2] [0] [0, 1] [] []

variable [Facts₀]

def dot_S64x25_S25x25_S64x25_1_1_0_0_n_n : DotDims S64x25 S25x25 S64x25 where
  lhsContracting := [1]
  rhsContracting := [1]
  lhsNonContracting := [0]
  rhsNonContracting := [0]
  lhsBatch := []
  rhsBatch := []
  wf := dot_S64x25_S25x25_S64x25_1_1_0_0_n_n_wf
def dot_S64x25_S3x25_S64x3_1_1_0_0_n_n : DotDims S64x25 S3x25 S64x3 where
  lhsContracting := [1]
  rhsContracting := [1]
  lhsNonContracting := [0]
  rhsNonContracting := [0]
  lhsBatch := []
  rhsBatch := []
  wf := dot_S64x25_S3x25_S64x3_1_1_0_0_n_n_wf
def dot_S64x25_S192x256x25_S64x192x256_1_2_0_01_n_n : DotDims S64x25 S192x256x25 S64x192x256 where
  lhsContracting := [1]
  rhsContracting := [2]
  lhsNonContracting := [0]
  rhsNonContracting := [0, 1]
  lhsBatch := []
  rhsBatch := []
  wf := dot_S64x25_S192x256x25_S64x192x256_1_2_0_01_n_n_wf

class Facts : Prop extends Facts₀ where

variable [Facts]
-- ==== Proof.Spec.lean ====
/-
  The specification: a thin-plate-spline warp of a 192 × 256 grid of points, for 64 coefficient sets at once.

  A grid point (u, v) and a control point (p, q) have the squared distance d = (u - p)² + (v - q)²; the radial term is
  d' · log d' where d' is d with the value 0 replaced by 1 (so a grid point that sits on a control point contributes
  1 · log 1). With affine coefficients A[b, 0..2] and radial weights W[b, 0..24] the warped coordinate is
      ((A[b,0] + A[b,1] · u) + A[b,2] · v) + Σ n, W[b,n] · radial(u, v, p n, q n),
  the sum over the 25 control points. The grouping of the affine part is kept as written, since sums on the extended
  reals are not rearranged across infinities here; the two programs group it the same way.
-/
import Idealize.ShloMosaic.PureOps.Ideal
import Idealize.ShloMosaic.Lib.ValueIdx

noncomputable section

namespace Cert.Warp

open Idealize.ShloMosaic Idealize.ShloMosaic.ValueIdx
open scoped BigOperators

/-- A squared distance with the value 0 replaced by 1: the argument the logarithm is taken at. The two literals are the
    f32 words of 0.0 and 1.0, the same words in both programs, so they are never evaluated. -/
def awayFromZero (d : EReal) : EReal :=
  Scalar.select (Ideal.cmp .oeq d (Ideal.ofBits .f32 0x00000000#32)) (Ideal.ofBits .f32 0x3F800000#32) d

/-- The radial term of the grid point (u, v) against the control point (p, q): d' · log d' at the guarded squared
    distance d'. -/
def radial (u v p q : EReal) : EReal :=
  awayFromZero ((u - p) * (u - p) + (v - q) * (v - q)) * Ideal.log (awayFromZero ((u - p) * (u - p) + (v - q) * (v - q)))

/-- The warped coordinate of ONE grid point (u, v) under one coefficient set: affine coefficients a0, a1, a2, radial
    weights w n, control points (px n, py n). -/
def warpPoint (a0 a1 a2 : EReal) (w : Fin 25 → EReal) (u v : EReal) (px py : Fin 25 → EReal) : EReal :=
  ((a0 + a1 * u) + a2 * v) + ∑ n : Fin 25, w n * radial u v (px n) (py n)

/-- Equal ingredients give equal warped coordinates. -/
theorem warpPoint_congr {a0 a1 a2 a0' a1' a2' u v u' v' : EReal} {w w' px py px' py' : Fin 25 → EReal}
    (h0 : a0 = a0') (h1 : a1 = a1') (h2 : a2 = a2') (hw : ∀ n, w n = w' n) (hu : u = u') (hv : v = v')
    (hpx : ∀ n, px n = px' n) (hpy : ∀ n, py n = py' n) :
    warpPoint a0 a1 a2 w u v px py = warpPoint a0' a1' a2' w' u' v' px' py' := by
  obtain rfl : w = w' := funext hw
  obtain rfl : px = px' := funext hpx
  obtain rfl : py = py' := funext hpy
  subst h0 h1 h2 hu hv
  rfl

/-- The warped coordinate for coefficient set b at the grid point of row r and column s. -/
def warpAt (A : (⟨2, ![64, 3]⟩ : Shape).Idx → EReal) (W : (⟨2, ![64, 25]⟩ : Shape).Idx → EReal)
    (gx gy : (⟨2, ![192, 256]⟩ : Shape).Idx → EReal) (px py : Fin 25 → EReal) (b : Fin 64) (r : Fin 192) (s : Fin 256) : EReal :=
  warpPoint (A (ix2 b (0 : Fin 3))) (A (ix2 b (1 : Fin 3))) (A (ix2 b (2 : Fin 3))) (fun n => W (ix2 b n))
    (gx (ix2 r s)) (gy (ix2 r s)) px py

/-- The whole result: one array over (coefficient set, grid row, grid column). -/
def warp (A : (⟨2, ![64, 3]⟩ : Shape).Idx → EReal) (W : (⟨2, ![64, 25]⟩ : Shape).Idx → EReal)
    (gx gy : (⟨2, ![192, 256]⟩ : Shape).Idx → EReal) (px py : Fin 25 → EReal) :
    (⟨3, ![64, 192, 256]⟩ : Shape).Idx → EReal :=
  fun i => warpAt A W gx gy px py (i 0) (i 1) (i 2)

theorem warp_apply (A : (⟨2, ![64, 3]⟩ : Shape).Idx → EReal) (W : (⟨2, ![64, 25]⟩ : Shape).Idx → EReal)
    (gx gy : (⟨2, ![192, 256]⟩ : Shape).Idx → EReal) (px py : Fin 25 → EReal) (b : Fin 64) (r : Fin 192) (s : Fin 256) :
    warp A W gx gy px py (ix3 b r s) = warpAt A W gx gy px py b r s := rfl

end Cert.Warp

end
-- ==== Proof.LibUnitAxisLayout.lean ====
/-
  Three layout operations read at an index given by coordinates, for shapes with a unit axis in the middle or in front:
  the shape cast that inserts a middle unit axis, [a, c] → [a, 1, c]; the broadcast along that middle unit axis,
  [a, 1, c] → [a, b, c]; and the broadcast along a leading unit axis, [1, b, c] → [a, b, c]. Each is the operand read at
  the index with the unit coordinate forgotten (the cast) or set to 0 (the broadcasts).
-/
import Idealize.ShloMosaic.Lib.Pipeline.Value
import Idealize.ShloMosaic.Lib.ValueIdx

namespace Cert.Lib.UnitAxis

open Idealize.ShloMosaic Idealize.ShloMosaic.ValueIdx

variable {α : Type}

/-- An `[a, c]` array cast to `[a, 1, c]` reads, at `(i, o, j)`, the operand at `(i, j)`, whatever the unit coordinate `o`:
    the two indices have the same row-major position `i · c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (o : Fin 1) (j : Fin c) :
    shapeCast ⟨3, ![a, 1, c]⟩ x h (ix3 i o j) = x (ix2 i j) :=
  shapeCast_apply x h _ _ (by
    have ho : o.val = 0 := by omega
    rw [Shape.rowMajor_val_three, Shape.rowMajor_val_two]
    show i.val * c + j.val = (i.val * 1 + o.val) * c + j.val
    rw [ho, Nat.mul_one, Nat.add_zero])

/-- An `[a, 1, c]` array broadcast to `[a, b, c]` reads, at `(i, p, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (p : Fin b) (j : Fin c) :
    broadcastTo ⟨3, ![a, b, c]⟩ x h (ix3 i p j) = x (ix3 i (0 : Fin 1) j) := by
  refine broadcastTo_apply x h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, p, j)`, the operand at `(0, p, j)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (p : Fin b) (j : Fin c) :
    broadcastTo ⟨3, ![a, b, c]⟩ x h (ix3 i p j) = x (ix3 (0 : Fin 1) p j) := by
  refine broadcastTo_apply x h (ix3 i p j) (ix3 (0 : Fin 1) p j) fun ax => ?_
  match ax with
  | ⟨0, _⟩ => rfl
  | ⟨1, _⟩ =>
    show p.val = if b = 1 then 0 else p.val
    split
    · have := p.isLt; omega
    · rfl
  | ⟨2, _⟩ =>
    show j.val = if c = 1 then 0 else j.val
    split
    · have := j.isLt; omega
    · rfl

end Cert.Lib.UnitAxis
-- ==== Proof.LibColumnFlatten.lean ====
/-
  Layout operations read at an index given by coordinates, for a column and for two trailing axes written as one.
  A column: the shape cast that makes a vector [a] a column [a, 1], the cast that gives a column a second unit axis,
  [a, 1] → [a, 1, 1], and the broadcast of such a column over two axes, [a, 1, 1] → [a, b, c]; each reads the operand at
  the row coordinate alone. Two trailing axes as one: the casts [a, b, c] → [a, n] and back, with n = b · c, under which
  the pair (p, j) and the single coordinate p · c + j name the same element.
-/
import Idealize.ShloMosaic.Lib.Pipeline.Value
import Idealize.ShloMosaic.Lib.ValueIdx

namespace Cert.Lib.ColumnFlatten

open Idealize.ShloMosaic Idealize.ShloMosaic.ValueIdx

variable {α : Type}

/-- A vector [a] cast to a column [a, 1] reads, at (i, o), the operand at i: both have row-major position i. -/
theorem shapeCast_a_a1_apply {a : ℕ} (x : (⟨1, ![a]⟩ : Shape).Idx → α)
    (h : (⟨1, ![a]⟩ : Shape).ShapeCasts ⟨2, ![a, 1]⟩) (i : Fin a) (o : Fin 1) :
    shapeCast ⟨2, ![a, 1]⟩ x h (ix2 i o) = x (ix1 i) :=
  shapeCast_apply x h _ _ (by
    have ho : o.val = 0 := by omega
    rw [Shape.rowMajor_val_two, Shape.rowMajor_val_one]
    show i.val = i.val * 1 + o.val
    rw [ho, Nat.mul_one, Nat.add_zero])

/-- A column [a, 1] cast to [a, 1, 1] reads, at (i, o, o'), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (o o' : Fin 1) :
    shapeCast ⟨3, ![a, 1, 1]⟩ x h (ix3 i o o') = x (ix2 i (0 : Fin 1)) :=
  shapeCast_apply x h _ _ (by
    have ho : o.val = 0 := by omega
    have ho' : o'.val = 0 := by omega
    rw [Shape.rowMajor_val_three, Shape.rowMajor_val_two]
    show i.val * 1 + 0 = (i.val * 1 + o.val) * 1 + o'.val
    omega)

/-- A column [a, 1, 1] broadcast to [a, b, c] reads, at (i, p, j), the operand at (i, 0, 0). -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (p : Fin b) (j : Fin c) :
    broadcastTo ⟨3, ![a, b, c]⟩ x h (ix3 i p j) = x (ix3 i (0 : Fin 1) (0 : Fin 1)) := by
  refine broadcastTo_apply x h (ix3 i p j) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An [a, b, c] array cast to [a, n], n = b · c, reads at (i, p · c + j) the operand at (i, p, j). -/
theorem shapeCast_abc_an_apply {a b c n : ℕ} (x : (⟨3, ![a, b, c]⟩ : Shape).Idx → α)
    (h : (⟨3, ![a, b, c]⟩ : Shape).ShapeCasts ⟨2, ![a, n]⟩) (i : Fin a) (p : Fin b) (j : Fin c) (q : Fin n)
    (hq : q.val = p.val * c + j.val) :
    shapeCast ⟨2, ![a, n]⟩ x h (ix2 i q) = x (ix3 i p j) :=
  shapeCast_apply x h _ _ (by
    have hn : n = b * c := by
      have e := h
      simp [Shape.ShapeCasts, Shape.numel, Fin.prod_univ_succ] at e
      have ha : a ≠ 0 := fun h0 => by have := i.isLt; omega
      rcases e with e | e
      · omega
      · exact absurd e ha
    rw [Shape.rowMajor_val_three, Shape.rowMajor_val_two]
    show (i.val * b + p.val) * c + j.val = i.val * n + q.val
    rw [hq, hn, Nat.add_mul, Nat.mul_assoc, Nat.add_assoc])

/-- An [a, n] array cast to [a, b, c], n = b · c, reads at (i, p, j) the operand at (i, p · c + j). -/
theorem shapeCast_an_abc_apply {a b c n : ℕ} (x : (⟨2, ![a, n]⟩ : Shape).Idx → α)
    (h : (⟨2, ![a, n]⟩ : Shape).ShapeCasts ⟨3, ![a, b, c]⟩) (i : Fin a) (p : Fin b) (j : Fin c) (q : Fin n)
    (hq : q.val = p.val * c + j.val) :
    shapeCast ⟨3, ![a, b, c]⟩ x h (ix3 i p j) = x (ix2 i q) :=
  shapeCast_apply x h _ _ (by
    have hn : n = b * c := by
      have e := h
      simp [Shape.ShapeCasts, Shape.numel, Fin.prod_univ_succ] at e
      have ha : a ≠ 0 := fun h0 => by have := i.isLt; omega
      rcases e with e | e
      · omega
      · exact absurd e ha
    rw [Shape.rowMajor_val_three, Shape.rowMajor_val_two]
    show i.val * n + q.val = (i.val * b + p.val) * c + j.val
    rw [hq, hn, Nat.add_mul, Nat.mul_assoc, Nat.add_assoc])

end Cert.Lib.ColumnFlatten
-- ==== Proof.KernelBody.lean ====
/-
  The kernel body at an index. For one grid step the body holds a 32-row block of each grid coordinate plane, the 25
  control points as two columns, the radial weights [64, 25] and the affine coefficients [64, 3]. It builds the radial
  terms as a [25, 32, 256] array (control point, row, column), flattens the last two axes, multiplies the weights into it
  (a matrix product into a zero accumulator: at each output entry the plain sum over the 25 control points), restores the
  two axes, and adds the affine part. Read at (b, r, s) the stored value is the specification's warpPoint of the block's
  values at (r, s): every layout step copies from the index with the same coordinates, and the flattened column r · 256 + s
  is the pair (r, s).
-/
import proofs.«159644_j73632919323234_2_alg».proof.Proof.Gen.KernelIdeal.Skeleton
import proofs.«159644_j73632919323234_2_alg».proof.Proof.Spec
import proofs.«159644_j73632919323234_2_alg».proof.Proof.LibUnitAxisLayout
import proofs.«159644_j73632919323234_2_alg».proof.Proof.LibColumnFlatten
import Idealize.ShloMosaic.Lib.ValueLayout
import Idealize.ShloMosaic.Lib.Pipeline.Value
import Idealize.ShloMosaic.PureOps.Ideal.Laws

noncomputable section

namespace Cert.KernelIdeal.WarpValue

open Cert.KernelIdeal Cert.KernelIdeal.Gen Idealize.ShloMosaic Idealize.ShloMosaic.ValueIdx Cert.Warp
open Cert.Lib.UnitAxis Cert.Lib.ColumnFlatten
open scoped BigOperators

/-- A grid plane's block given a leading unit axis reads the block at (r, s). -/
theorem plane_x_apply (x0 : Vec Ideal S32x256 .f32) (u : Fin 1) (r : Fin 32) (s : Fin 256) :
    k0_pay3 x0 (ix3 u r s) = x0 (ix2 r s) := by
  unfold k0_pay3
  rw [shapeCast_ab_1ab_apply, shapeCast_self]

theorem plane_y_apply (x1 : Vec Ideal S32x256 .f32) (u : Fin 1) (r : Fin 32) (s : Fin 256) :
    k0_pay4 x1 (ix3 u r s) = x1 (ix2 r s) := by
  unfold k0_pay4
  rw [shapeCast_ab_1ab_apply, shapeCast_self]

/-- The radial terms, flattened: at control point n and flattened column q = r · 256 + s, the radial term of the block's
    grid point (r, s) against control point n. -/
theorem radial_block_apply (x0 x1 : Vec Ideal S32x256 .f32) (x2 x3 : Vec Ideal S25x1 .f32)
    (n : Fin 25) (r : Fin 32) (s : Fin 256) (q : Fin 8192) (hq : q.val = r.val * 256 + s.val) :
    k0_pay5 x0 x1 x2 x3 (ix2 n q) = radial (x0 (ix2 r s)) (x1 (ix2 r s)) (x2 (ix2 n (0 : Fin 1))) (x3 (ix2 n (0 : Fin 1))) := by
  unfold k0_pay5
  rw [shapeCast_abc_an_apply _ _ n r s q hq]
  have hu : broadcastTo S25x32x256 (k0_pay3 x0) broadcasts_S1x32x256_S25x32x256 (ix3 n r s) = x0 (ix2 r s) :=
    (broadcastTo_1bc_abc_apply _ _ n r s).trans (plane_x_apply x0 0 r s)
  have hv : broadcastTo S25x32x256 (k0_pay4 x1) broadcasts_S1x32x256_S25x32x256 (ix3 n r s) = x1 (ix2 r s) :=
    (broadcastTo_1bc_abc_apply _ _ n r s).trans (plane_y_apply x1 0 r s)
  have hp : broadcastTo S25x32x256 (shapeCast S25x1x1 (shapeCast S25x1 x2 shapeCasts_S25x1_S25x1) shapeCasts_S25x1_S25x1x1)
      broadcasts_S25x1x1_S25x32x256 (ix3 n r s) = x2 (ix2 n (0 : Fin 1)) :=
    (broadcastTo_a11_abc_apply _ _ n r s).trans ((shapeCast_a1_a11_apply _ _ n 0 0).trans (by rw [shapeCast_self]))
  have hq' : broadcastTo S25x32x256 (shapeCast S25x1x1 (shapeCast S25x1 x3 shapeCasts_S25x1_S25x1) shapeCasts_S25x1_S25x1x1)
      broadcasts_S25x1x1_S25x32x256 (ix3 n r s) = x3 (ix2 n (0 : Fin 1)) :=
    (broadcastTo_a11_abc_apply _ _ n r s).trans ((shapeCast_a1_a11_apply _ _ n 0 0).trans (by rw [shapeCast_self]))
  show radial (broadcastTo S25x32x256 (k0_pay3 x0) broadcasts_S1x32x256_S25x32x256 (ix3 n r s))
      (broadcastTo S25x32x256 (k0_pay4 x1) broadcasts_S1x32x256_S25x32x256 (ix3 n r s))
      (broadcastTo S25x32x256 (shapeCast S25x1x1 (shapeCast S25x1 x2 shapeCasts_S25x1_S25x1) shapeCasts_S25x1_S25x1x1)
        broadcasts_S25x1x1_S25x32x256 (ix3 n r s))
      (broadcastTo S25x32x256 (shapeCast S25x1x1 (shapeCast S25x1 x3 shapeCasts_S25x1_S25x1) shapeCasts_S25x1_S25x1x1)
        broadcasts_S25x1x1_S25x32x256 (ix3 n r s)) = _
  rw [hu, hv, hp, hq']

/-! ## The product with the weights -/

theorem lhs_row (i : S64x8192.Idx) (q : dot_S64x25_S25x8192_S64x8192_1_0_0_1_n_n.contr.Idx) :
    (dot_S64x25_S25x8192_S64x8192_1_0_0_1_n_n.lhsIdx i q 0).val = (i 0).val := by
  unfold DotDims.lhsIdx
  rw [dif_neg (show ¬(0 : Fin S64x25.rank) ∈ dot_S64x25_S25x8192_S64x8192_1_0_0_1_n_n.lhsBatch by decide),
    dif_pos (show (0 : Fin S64x25.rank) ∈ dot_S64x25_S25x8192_S64x8192_1_0_0_1_n_n.lhsNonContracting by decide)]
  rfl
theorem lhs_contr (i : S64x8192.Idx) (q : dot_S64x25_S25x8192_S64x8192_1_0_0_1_n_n.contr.Idx) :
    (dot_S64x25_S25x8192_S64x8192_1_0_0_1_n_n.lhsIdx i q 1).val = (q ⟨0, by decide⟩).val :=
  dot_S64x25_S25x8192_S64x8192_1_0_0_1_n_n.lhsIdx_val_of_single rfl i q
theorem rhs_contr (i : S64x8192.Idx) (q : dot_S64x25_S25x8192_S64x8192_1_0_0_1_n_n.contr.Idx) :
    (dot_S64x25_S25x8192_S64x8192_1_0_0_1_n_n.rhsIdx i q 0).val = (q ⟨0, by decide⟩).val :=
  dot_S64x25_S25x8192_S64x8192_1_0_0_1_n_n.rhsIdx_val_of_single rfl i q
theorem rhs_col (i : S64x8192.Idx) (q : dot_S64x25_S25x8192_S64x8192_1_0_0_1_n_n.contr.Idx) :
    (dot_S64x25_S25x8192_S64x8192_1_0_0_1_n_n.rhsIdx i q 1).val = (i 1).val := by
  unfold DotDims.rhsIdx
  rw [dif_neg (show ¬(1 : Fin S25x8192.rank) ∈ dot_S64x25_S25x8192_S64x8192_1_0_0_1_n_n.rhsBatch by decide),
    dif_pos (show (1 : Fin S25x8192.rank) ∈ dot_S64x25_S25x8192_S64x8192_1_0_0_1_n_n.rhsNonContracting by decide)]
  rfl

/-- The weights [64, 25] multiplied into an array [25, 8192] with a zero accumulator: at (b, q) the sum over the 25 rows of
    weight times entry, with no order left in it on the extended reals. -/
theorem weights_product_apply (w : FVec Ideal S64x25 .f32) (y : FVec Ideal S25x8192 .f32) (b : Fin 64) (q : Fin 8192) :
    matmul dot_S64x25_S25x8192_S64x8192_1_0_0_1_n_n none w y (constant S64x8192 .f32 0x00000000#32) (ix2 b q)
      = ∑ n : Fin 25, w (ix2 b n) * y (ix2 n q) := by
  simp only [matmul]
  rw [Ideal.matmul_constant_zero_apply, ← Equiv.sum_comp (contrEquiv1 dot_S64x25_S25x8192_S64x8192_1_0_0_1_n_n 25 rfl rfl).symm]
  refine Finset.sum_congr rfl fun k _ => ?_
  have hk := contrEquiv1_symm_val dot_S64x25_S25x8192_S64x8192_1_0_0_1_n_n 25 rfl rfl k
  have el : dot_S64x25_S25x8192_S64x8192_1_0_0_1_n_n.lhsIdx (ix2 b q) ((contrEquiv1 dot_S64x25_S25x8192_S64x8192_1_0_0_1_n_n 25 rfl rfl).symm k) = ix2 b k :=
    funext fun a => Fin.ext (by
      match a with
      | ⟨0, _⟩ => exact lhs_row _ _
      | ⟨1, _⟩ => exact (lhs_contr _ _).trans hk)
  have er : dot_S64x25_S25x8192_S64x8192_1_0_0_1_n_n.rhsIdx (ix2 b q) ((contrEquiv1 dot_S64x25_S25x8192_S64x8192_1_0_0_1_n_n 25 rfl rfl).symm k) = ix2 k q :=
    funext fun a => Fin.ext (by
      match a with
      | ⟨0, _⟩ => exact (rhs_contr _ _).trans hk
      | ⟨1, _⟩ => exact rhs_col _ _)
  rw [el, er]

/-- The radial part of the first plane at (b, r, s): the weights of coefficient set b against the radial terms of the
    block's grid point (r, s). -/
theorem radial_sum_x_apply (x0 x1 : Vec Ideal S32x256 .f32) (x2 x3 : Vec Ideal S25x1 .f32) (x4 : Vec Ideal S64x25 .f32)
    (b : Fin 64) (r : Fin 32) (s : Fin 256) :
    k0_pay6 x0 x1 x2 x3 x4 (ix3 b r s)
      = ∑ n : Fin 25, x4 (ix2 b n) * radial (x0 (ix2 r s)) (x1 (ix2 r s)) (x2 (ix2 n (0 : Fin 1))) (x3 (ix2 n (0 : Fin 1))) := by
  unfold k0_pay6
  rw [shapeCast_an_abc_apply _ _ b r s ⟨r.val * 256 + s.val, by have := r.isLt; have := s.isLt; omega⟩ rfl, shapeCast_self,
    weights_product_apply]
  exact Finset.sum_congr rfl fun n _ => by rw [radial_block_apply x0 x1 x2 x3 n r s _ rfl]

/-- The radial part of the second plane: the same radial terms against the second set of weights. -/
theorem radial_sum_y_apply (x0 x1 : Vec Ideal S32x256 .f32) (x2 x3 : Vec Ideal S25x1 .f32) (x5 : Vec Ideal S64x25 .f32)
    (b : Fin 64) (r : Fin 32) (s : Fin 256) :
    k0_pay7 x0 x1 x2 x3 x5 (ix3 b r s)
      = ∑ n : Fin 25, x5 (ix2 b n) * radial (x0 (ix2 r s)) (x1 (ix2 r s)) (x2 (ix2 n (0 : Fin 1))) (x3 (ix2 n (0 : Fin 1))) := by
  unfold k0_pay7
  rw [shapeCast_an_abc_apply _ _ b r s ⟨r.val * 256 + s.val, by have := r.isLt; have := s.isLt; omega⟩ rfl, shapeCast_self,
    weights_product_apply]
  exact Finset.sum_congr rfl fun n _ => by rw [radial_block_apply x0 x1 x2 x3 n r s _ rfl]

/-! ## The affine part, and the stored values -/

/-- Column k of the affine coefficients as a [64, 1, 1] column broadcast over the block: at (b, r, s) it is A[b, k]. -/
theorem coeff_column_apply (A : FVec Ideal S64x3 .f32) (k : Nat) (hk : k < 3) (h : S64x3.Slices ![0, k] S64x1)
    (b : Fin 64) (r : Fin 32) (s : Fin 256) :
    broadcastTo S64x32x256 (shapeCast S64x1x1 (extractStridedSlice S64x1 ![0, k] A h) shapeCasts_S64x1_S64x1x1)
        broadcasts_S64x1x1_S64x32x256 (ix3 b r s) = A (ix2 b ⟨k, hk⟩) :=
  (broadcastTo_a11_abc_apply _ _ b r s).trans
    ((shapeCast_a1_a11_apply _ _ b 0 0).trans (slice2_axis1_apply k A h b (0 : Fin 1) ⟨k, hk⟩ rfl))

/-- A grid plane's block broadcast over the 64 coefficient sets: at (b, r, s) the block at (r, s). -/
theorem plane_x_over_sets (x0 : Vec Ideal S32x256 .f32) (b : Fin 64) (r : Fin 32) (s : Fin 256) :
    broadcastTo S64x32x256 (k0_pay3 x0) broadcasts_S1x32x256_S64x32x256 (ix3 b r s) = x0 (ix2 r s) :=
  (broadcastTo_1bc_abc_apply _ _ b r s).trans (plane_x_apply x0 0 r s)

theorem plane_y_over_sets (x1 : Vec Ideal S32x256 .f32) (b : Fin 64) (r : Fin 32) (s : Fin 256) :
    broadcastTo S64x32x256 (k0_pay4 x1) broadcasts_S1x32x256_S64x32x256 (ix3 b r s) = x1 (ix2 r s) :=
  (broadcastTo_1bc_abc_apply _ _ b r s).trans (plane_y_apply x1 0 r s)

/-- WHAT THE BODY STORES in the first output, at (b, r, s): the warp of the block's grid point (r, s) under coefficient
    set b, with the first coefficient arrays. -/
theorem stored_x_apply (x0 x1 : Vec Ideal S32x256 .f32) (x2 x3 : Vec Ideal S25x1 .f32) (x4 : Vec Ideal S64x25 .f32)
    (x6 : Vec Ideal S64x3 .f32) (b : Fin 64) (r : Fin 32) (s : Fin 256) :
    k0_pay1 (k0_pay3 x0) (k0_pay4 x1) (k0_pay6 x0 x1 x2 x3 x4) (k0_pay8 x6) (ix3 b r s)
      = warpPoint (x6 (ix2 b (0 : Fin 3))) (x6 (ix2 b (1 : Fin 3))) (x6 (ix2 b (2 : Fin 3))) (fun n => x4 (ix2 b n))
          (x0 (ix2 r s)) (x1 (ix2 r s)) (fun n => x2 (ix2 n (0 : Fin 1))) (fun n => x3 (ix2 n (0 : Fin 1))) := by
  unfold k0_pay1 k0_pay8
  rw [shapeCast_self]
  simp only [addf_apply, mulf_apply, coeff_column_apply x6 0 (by decide), coeff_column_apply x6 1 (by decide),
    coeff_column_apply x6 2 (by decide), plane_x_over_sets, plane_y_over_sets, radial_sum_x_apply]
  rfl

/-- WHAT THE BODY STORES in the second output, at (b, r, s): the same warp with the second coefficient arrays. -/
theorem stored_y_apply (x0 x1 : Vec Ideal S32x256 .f32) (x2 x3 : Vec Ideal S25x1 .f32) (x5 : Vec Ideal S64x25 .f32)
    (x7 : Vec Ideal S64x3 .f32) (b : Fin 64) (r : Fin 32) (s : Fin 256) :
    k0_pay2 (k0_pay3 x0) (k0_pay4 x1) (k0_pay7 x0 x1 x2 x3 x5) x7 (ix3 b r s)
      = warpPoint (x7 (ix2 b (0 : Fin 3))) (x7 (ix2 b (1 : Fin 3))) (x7 (ix2 b (2 : Fin 3))) (fun n => x5 (ix2 b n))
          (x0 (ix2 r s)) (x1 (ix2 r s)) (fun n => x2 (ix2 n (0 : Fin 1))) (fun n => x3 (ix2 n (0 : Fin 1))) := by
  unfold k0_pay2
  rw [shapeCast_self]
  simp only [addf_apply, mulf_apply, coeff_column_apply x7 0 (by decide), coeff_column_apply x7 1 (by decide),
    coeff_column_apply x7 2 (by decide), plane_x_over_sets, plane_y_over_sets, radial_sum_y_apply]
  rfl

/-- The first stored value at any index of the block, by its three coordinates. -/
theorem stored_x (x0 x1 : Vec Ideal S32x256 .f32) (x2 x3 : Vec Ideal S25x1 .f32) (x4 : Vec Ideal S64x25 .f32)
    (x6 : Vec Ideal S64x3 .f32) (j : S64x32x256.Idx) :
    k0_pay1 (k0_pay3 x0) (k0_pay4 x1) (k0_pay6 x0 x1 x2 x3 x4) (k0_pay8 x6) j
      = warpPoint (x6 (ix2 (j 0) (0 : Fin 3))) (x6 (ix2 (j 0) (1 : Fin 3))) (x6 (ix2 (j 0) (2 : Fin 3))) (fun n => x4 (ix2 (j 0) n))
          (x0 (ix2 (j 1) (j 2))) (x1 (ix2 (j 1) (j 2))) (fun n => x2 (ix2 n (0 : Fin 1))) (fun n => x3 (ix2 n (0 : Fin 1))) := by
  obtain ⟨b, r, s, rfl⟩ : ∃ (b : Fin 64) (r : Fin 32) (s : Fin 256), j = ix3 b r s := ⟨j 0, j 1, j 2, eq_ix3 j⟩
  exact stored_x_apply x0 x1 x2 x3 x4 x6 b r s

/-- The second stored value at any index of the block. -/
theorem stored_y (x0 x1 : Vec Ideal S32x256 .f32) (x2 x3 : Vec Ideal S25x1 .f32) (x5 : Vec Ideal S64x25 .f32)
    (x7 : Vec Ideal S64x3 .f32) (j : S64x32x256.Idx) :
    k0_pay2 (k0_pay3 x0) (k0_pay4 x1) (k0_pay7 x0 x1 x2 x3 x5) x7 j
      = warpPoint (x7 (ix2 (j 0) (0 : Fin 3))) (x7 (ix2 (j 0) (1 : Fin 3))) (x7 (ix2 (j 0) (2 : Fin 3))) (fun n => x5 (ix2 (j 0) n))
          (x0 (ix2 (j 1) (j 2))) (x1 (ix2 (j 1) (j 2))) (fun n => x2 (ix2 n (0 : Fin 1))) (fun n => x3 (ix2 n (0 : Fin 1))) := by
  obtain ⟨b, r, s, rfl⟩ : ∃ (b : Fin 64) (r : Fin 32) (s : Fin 256), j = ix3 b r s := ⟨j 0, j 1, j 2, eq_ix3 j⟩
  exact stored_y_apply x0 x1 x2 x3 x5 x7 b r s

end Cert.KernelIdeal.WarpValue

end
-- ==== Proof.Blocks.lean ====
/-
  From blocks to arrays. The grid has 6 steps; step t stages rows 32 t … 32 t + 31 of each grid coordinate plane, the
  whole of every other input, and writes back rows 32 t … 32 t + 31 (on the middle axis) of each output. What step t
  writes back is therefore block t of ONE whole-array function, the specification's warp of the arrays the region
  found, and the six blocks tile each output: each output array ends holding that warp.
-/
import proofs.«159644_j73632919323234_2_alg».proof.Proof.Gen.KernelIdeal.Frame
import proofs.«159644_j73632919323234_2_alg».proof.Proof.KernelBody
import Idealize.ShloMosaic.Lib.Pipeline.Value

set_option maxRecDepth 16384

noncomputable section

namespace Cert.KernelIdeal.WarpValue

open Cert.KernelIdeal Cert.KernelIdeal.Gen Idealize.ShloMosaic Idealize.ShloMosaic.TcCoe Idealize.SL.Sem
open Idealize.ShloMosaic.ValueIdx Cert.Warp
open Idealize.ShloMosaic.Pipeline (Dat)
open scoped BigOperators

variable (m : (ℓ : Loc nD τ sig) → Buf (Elt Ideal) ℓ)

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-! ## Where each window's block sits, decided over the six steps -/

/-- The two grid planes move with the outputs' middle axis; their second block index is 0. -/
theorem idx_planes : ∀ t : Fin cfg0.N,
    win0_0.index t (0 : Fin 2) = win0_8.index t (1 : Fin 3) ∧ win0_0.index t (1 : Fin 2) = 0
    ∧ win0_1.index t (0 : Fin 2) = win0_8.index t (1 : Fin 3) ∧ win0_1.index t (1 : Fin 2) = 0 :=
  (by decide +kernel : ∀ t : Fin grid0.N, _)

/-- Every other input is staged whole at every step. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The outputs' blocks: whole on the first and last axes, one of six on the middle axis, the two outputs together. -/
theorem idx_out : ∀ t : Fin cfg0.N,
    win0_8.index t (0 : Fin 3) = 0 ∧ win0_8.index t (2 : Fin 3) = 0 ∧ win0_8.index t (1 : Fin 3) ≤ 5
    ∧ win0_9.index t (0 : Fin 3) = 0 ∧ win0_9.index t (2 : Fin 3) = 0 ∧ win0_9.index t (1 : Fin 3) = win0_8.index t (1 : Fin 3) :=
  (by decide +kernel : ∀ t : Fin grid0.N, _)

/-- Each of the six middle-axis blocks is some step's. -/
theorem idx_onto_x : ∀ q : Fin 6, ∃ t : Fin cfg0.N, win0_8.index t = ![0, q.val, 0] :=
  (by decide +kernel : ∀ q : Fin 6, ∃ t : Fin grid0.N, win0_8.index t = ![0, q.val, 0])
theorem idx_onto_y : ∀ q : Fin 6, ∃ t : Fin cfg0.N, win0_9.index t = ![0, q.val, 0] :=
  (by decide +kernel : ∀ q : Fin 6, ∃ t : Fin grid0.N, win0_9.index t = ![0, q.val, 0])

/-! ## Each input block is the array the region found, read at the step's rows -/

/-- Step t's block of the first grid plane at (r, s) is the plane at row 32 t + r, column s. -/
theorem block_grid_x (c : Dev nD) (t : Fin cfg0.N) (r : Fin 32) (s : Fin 256) (i : S192x256.Idx)
    (h0 : (i 0).val = win0_8.index t (1 : Fin 3) * 32 + r.val) (h1 : (i 1).val = s.val) :
    (iblk m c 0 t : Vec Ideal S32x256 .f32) (ix2 r s) = (V m c main_v17 : S192x256.Idx → Elt Ideal .f32) i := by
  obtain ⟨e0, e1, -, -⟩ := idx_planes t
  unfold iblk
  rw [View.read_apply]
  show V m c main_v17 _ = V m c main_v17 i
  congr 1
  funext a
  apply Fin.ext
  match a with
  | ⟨0, _⟩ => show win0_0.index t (0 : Fin 2) * 32 + 1 * r.val = (i 0).val; omega
  | ⟨1, _⟩ => show win0_0.index t (1 : Fin 2) * 256 + 1 * s.val = (i 1).val; omega

/-- Likewise for the second grid plane. -/
theorem block_grid_y (c : Dev nD) (t : Fin cfg0.N) (r : Fin 32) (s : Fin 256) (i : S192x256.Idx)
    (h0 : (i 0).val = win0_8.index t (1 : Fin 3) * 32 + r.val) (h1 : (i 1).val = s.val) :
    (iblk m c 1 t : Vec Ideal S32x256 .f32) (ix2 r s) = (V m c main_v19 : S192x256.Idx → Elt Ideal .f32) i := by
  obtain ⟨-, -, e0, e1⟩ := idx_planes t
  unfold iblk
  rw [View.read_apply]
  show V m c main_v19 _ = V m c main_v19 i
  congr 1
  funext a
  apply Fin.ext
  match a with
  | ⟨0, _⟩ => show win0_1.index t (0 : Fin 2) * 32 + 1 * r.val = (i 0).val; omega
  | ⟨1, _⟩ => show win0_1.index t (1 : Fin 2) * 256 + 1 * s.val = (i 1).val; omega

/-- The first control-point column is staged whole. -/
theorem block_points_x (c : Dev nD) (t : Fin cfg0.N) (y : S25x1.Idx) :
    (iblk m c 2 t : Vec Ideal S25x1 .f32) y = (V m c main_v20 : S25x1.Idx → Elt Ideal .f32) y := by
  obtain ⟨a20, a21, a30, a31, a40, a41, a50, a51, a60, a61, a70, a71⟩ := idx_whole t
  unfold iblk
  rw [View.read_apply]
  show V m c main_v20 _ = V m c main_v20 y
  congr 1
  funext a
  apply Fin.ext
  match a with
  | ⟨0, _⟩ => show win0_2.index t (0 : Fin 2) * 25 + 1 * (y 0).val = (y 0).val; omega
  | ⟨1, _⟩ => show win0_2.index t (1 : Fin 2) * 1 + 1 * (y 1).val = (y 1).val; omega

/-- The second control-point column is staged whole. -/
theorem block_points_y (c : Dev nD) (t : Fin cfg0.N) (y : S25x1.Idx) :
    (iblk m c 3 t : Vec Ideal S25x1 .f32) y = (V m c main_v21 : S25x1.Idx → Elt Ideal .f32) y := by
  obtain ⟨a20, a21, a30, a31, a40, a41, a50, a51, a60, a61, a70, a71⟩ := idx_whole t
  unfold iblk
  rw [View.read_apply]
  show V m c main_v21 _ = V m c main_v21 y
  congr 1
  funext a
  apply Fin.ext
  match a with
  | ⟨0, _⟩ => show win0_3.index t (0 : Fin 2) * 25 + 1 * (y 0).val = (y 0).val; omega
  | ⟨1, _⟩ => show win0_3.index t (1 : Fin 2) * 1 + 1 * (y 1).val = (y 1).val; omega

/-- The first plane's radial weights are staged whole. -/
theorem block_weights_x (c : Dev nD) (t : Fin cfg0.N) (y : S64x25.Idx) :
    (iblk m c 4 t : Vec Ideal S64x25 .f32) y = (V m c main_v9 : S64x25.Idx → Elt Ideal .f32) y := by
  obtain ⟨a20, a21, a30, a31, a40, a41, a50, a51, a60, a61, a70, a71⟩ := idx_whole t
  unfold iblk
  rw [View.read_apply]
  show V m c main_v9 _ = V m c main_v9 y
  congr 1
  funext a
  apply Fin.ext
  match a with
  | ⟨0, _⟩ => show win0_4.index t (0 : Fin 2) * 64 + 1 * (y 0).val = (y 0).val; omega
  | ⟨1, _⟩ => show win0_4.index t (1 : Fin 2) * 25 + 1 * (y 1).val = (y 1).val; omega

/-- The second plane's radial weights are staged whole. -/
theorem block_weights_y (c : Dev nD) (t : Fin cfg0.N) (y : S64x25.Idx) :
    (iblk m c 5 t : Vec Ideal S64x25 .f32) y = (V m c main_v11 : S64x25.Idx → Elt Ideal .f32) y := by
  obtain ⟨a20, a21, a30, a31, a40, a41, a50, a51, a60, a61, a70, a71⟩ := idx_whole t
  unfold iblk
  rw [View.read_apply]
  show V m c main_v11 _ = V m c main_v11 y
  congr 1
  funext a
  apply Fin.ext
  match a with
  | ⟨0, _⟩ => show win0_5.index t (0 : Fin 2) * 64 + 1 * (y 0).val = (y 0).val; omega
  | ⟨1, _⟩ => show win0_5.index t (1 : Fin 2) * 25 + 1 * (y 1).val = (y 1).val; omega

/-- The first plane's affine coefficients are staged whole. -/
theorem block_affine_x (c : Dev nD) (t : Fin cfg0.N) (y : S64x3.Idx) :
    (iblk m c 6 t : Vec Ideal S64x3 .f32) y = (V m c main_v13 : S64x3.Idx → Elt Ideal .f32) y := by
  obtain ⟨a20, a21, a30, a31, a40, a41, a50, a51, a60, a61, a70, a71⟩ := idx_whole t
  unfold iblk
  rw [View.read_apply]
  show V m c main_v13 _ = V m c main_v13 y
  congr 1
  funext a
  apply Fin.ext
  match a with
  | ⟨0, _⟩ => show win0_6.index t (0 : Fin 2) * 64 + 1 * (y 0).val = (y 0).val; omega
  | ⟨1, _⟩ => show win0_6.index t (1 : Fin 2) * 3 + 1 * (y 1).val = (y 1).val; omega

/-- The second plane's affine coefficients are staged whole. -/
theorem block_affine_y (c : Dev nD) (t : Fin cfg0.N) (y : S64x3.Idx) :
    (iblk m c 7 t : Vec Ideal S64x3 .f32) y = (V m c main_v15 : S64x3.Idx → Elt Ideal .f32) y := by
  obtain ⟨a20, a21, a30, a31, a40, a41, a50, a51, a60, a61, a70, a71⟩ := idx_whole t
  unfold iblk
  rw [View.read_apply]
  show V m c main_v15 _ = V m c main_v15 y
  congr 1
  funext a
  apply Fin.ext
  match a with
  | ⟨0, _⟩ => show win0_7.index t (0 : Fin 2) * 64 + 1 * (y 0).val = (y 0).val; omega
  | ⟨1, _⟩ => show win0_7.index t (1 : Fin 2) * 3 + 1 * (y 1).val = (y 1).val; omega

/-! ## What each step writes back -/

/-- The first output as ONE function of the arrays the region found: the warp with the first coefficient arrays. -/
def arrayX (c : Dev nD) : S64x192x256.Idx → Elt Ideal .f32 :=
  warp (V m c main_v13 : S64x3.Idx → Elt Ideal .f32) (V m c main_v9 : S64x25.Idx → Elt Ideal .f32)
    (V m c main_v17 : S192x256.Idx → Elt Ideal .f32) (V m c main_v19 : S192x256.Idx → Elt Ideal .f32)
    (fun n => (V m c main_v20 : S25x1.Idx → Elt Ideal .f32) (ix2 n (0 : Fin 1)))
    (fun n => (V m c main_v21 : S25x1.Idx → Elt Ideal .f32) (ix2 n (0 : Fin 1)))

/-- The second output: the warp with the second coefficient arrays. -/
def arrayY (c : Dev nD) : S64x192x256.Idx → Elt Ideal .f32 :=
  warp (V m c main_v15 : S64x3.Idx → Elt Ideal .f32) (V m c main_v11 : S64x25.Idx → Elt Ideal .f32)
    (V m c main_v17 : S192x256.Idx → Elt Ideal .f32) (V m c main_v19 : S192x256.Idx → Elt Ideal .f32)
    (fun n => (V m c main_v20 : S25x1.Idx → Elt Ideal .f32) (ix2 n (0 : Fin 1)))
    (fun n => (V m c main_v21 : S25x1.Idx → Elt Ideal .f32) (ix2 n (0 : Fin 1)))

/-- WHAT STEP t WRITES BACK to the first output is block t of arrayX. -/
theorem flushed_x (c : Dev nD) (t : Fin cfg0.N) :
    (dats m 0 c).flushed 8 t = ((cfg0.win 8).blk t).view.read (Elt Ideal) (arrayX m c) := by
  show (cfg0.win 8).cut (grid0.coords t) ((dats m 0 c).after 8 t) = _
  rw [after0_8]
  unfold out0_8
  rw [View.canon_unit_zero zero_offsets3]
  simp only [View.ld_unit_zero (S := S32x256) zero_offsets2, View.ld_unit_zero (S := S25x1) zero_offsets2,
    View.ld_unit_zero (S := S64x25) zero_offsets2, View.ld_unit_zero (S := S64x3) zero_offsets2]
  obtain ⟨o0, o2, o1, -, -, -⟩ := idx_out t
  funext j
  show k0_pay1 (k0_pay3 (iblk m c 0 t)) (k0_pay4 (iblk m c 1 t))
      (k0_pay6 (iblk m c 0 t) (iblk m c 1 t) (iblk m c 2 t) (iblk m c 3 t) (iblk m c 4 t)) (k0_pay8 (iblk m c 6 t)) j
    = arrayX m c (((cfg0.win 8).blk t).view.emb j)
  refine (stored_x (iblk m c 0 t) (iblk m c 1 t) (iblk m c 2 t) (iblk m c 3 t) (iblk m c 4 t) (iblk m c 6 t) j).trans ?_
  have hb : ((((cfg0.win 8).blk t).view.emb j) 0 : Fin 64) = j 0 :=
    Fin.ext (by show win0_8.index t (0 : Fin 3) * 64 + 1 * (j 0).val = (j 0).val; omega)
  refine warpPoint_congr ?_ ?_ ?_ (fun n => ?_) ?_ ?_ (fun n => ?_) (fun n => ?_)
  · rw [hb]; exact block_affine_x m c t _
  · rw [hb]; exact block_affine_x m c t _
  · rw [hb]; exact block_affine_x m c t _
  · rw [hb]; exact block_weights_x m c t _
  · exact block_grid_x m c t (j 1) (j 2) _
      (by show win0_8.index t (1 : Fin 3) * 32 + 1 * (j 1).val = win0_8.index t (1 : Fin 3) * 32 + (j 1).val; omega)
      (by show win0_8.index t (2 : Fin 3) * 256 + 1 * (j 2).val = (j 2).val; omega)
  · exact block_grid_y m c t (j 1) (j 2) _
      (by show win0_8.index t (1 : Fin 3) * 32 + 1 * (j 1).val = win0_8.index t (1 : Fin 3) * 32 + (j 1).val; omega)
      (by show win0_8.index t (2 : Fin 3) * 256 + 1 * (j 2).val = (j 2).val; omega)
  · exact block_points_x m c t _
  · exact block_points_y m c t _

/-- WHAT STEP t WRITES BACK to the second output is block t of arrayY. -/
theorem flushed_y (c : Dev nD) (t : Fin cfg0.N) :
    (dats m 0 c).flushed 9 t = ((cfg0.win 9).blk t).view.read (Elt Ideal) (arrayY m c) := by
  show (cfg0.win 9).cut (grid0.coords t) ((dats m 0 c).after 9 t) = _
  rw [after0_9]
  unfold out0_9
  rw [View.canon_unit_zero zero_offsets3]
  simp only [View.ld_unit_zero (S := S32x256) zero_offsets2, View.ld_unit_zero (S := S25x1) zero_offsets2,
    View.ld_unit_zero (S := S64x25) zero_offsets2, View.ld_unit_zero (S := S64x3) zero_offsets2]
  obtain ⟨-, -, o1, p0, p2, p1⟩ := idx_out t
  funext j
  show k0_pay2 (k0_pay3 (iblk m c 0 t)) (k0_pay4 (iblk m c 1 t))
      (k0_pay7 (iblk m c 0 t) (iblk m c 1 t) (iblk m c 2 t) (iblk m c 3 t) (iblk m c 5 t)) (iblk m c 7 t) j
    = arrayY m c (((cfg0.win 9).blk t).view.emb j)
  refine (stored_y (iblk m c 0 t) (iblk m c 1 t) (iblk m c 2 t) (iblk m c 3 t) (iblk m c 5 t) (iblk m c 7 t) j).trans ?_
  have hb : ((((cfg0.win 9).blk t).view.emb j) 0 : Fin 64) = j 0 :=
    Fin.ext (by show win0_9.index t (0 : Fin 3) * 64 + 1 * (j 0).val = (j 0).val; omega)
  refine warpPoint_congr ?_ ?_ ?_ (fun n => ?_) ?_ ?_ (fun n => ?_) (fun n => ?_)
  · rw [hb]; exact block_affine_y m c t _
  · rw [hb]; exact block_affine_y m c t _
  · rw [hb]; exact block_affine_y m c t _
  · rw [hb]; exact block_weights_y m c t _
  · exact block_grid_x m c t (j 1) (j 2) _
      (by show win0_9.index t (1 : Fin 3) * 32 + 1 * (j 1).val = win0_8.index t (1 : Fin 3) * 32 + (j 1).val; omega)
      (by show win0_9.index t (2 : Fin 3) * 256 + 1 * (j 2).val = (j 2).val; omega)
  · exact block_grid_y m c t (j 1) (j 2) _
      (by show win0_9.index t (1 : Fin 3) * 32 + 1 * (j 1).val = win0_8.index t (1 : Fin 3) * 32 + (j 1).val; omega)
      (by show win0_9.index t (2 : Fin 3) * 256 + 1 * (j 2).val = (j 2).val; omega)
  · exact block_points_x m c t _
  · exact block_points_y m c t _

/-! ## The six blocks tile each output -/

/-- An index of the first output is in step t's block iff each coordinate is in the block's range on its axis. -/
theorem mem_blk_x (t : Fin cfg0.N) (i : S64x192x256.Idx) :
    i ∈ ((cfg0.win 8).blk t).view.set ↔ ∀ a : Fin 3, win0_8.index t a * S64x32x256.size a ≤ (i a).val
      ∧ (i a).val < win0_8.index t a * S64x32x256.size a + S64x32x256.size a := by
  show i ∈ ((View.whole main_v22_0).slice (win0_8.rect t)).set ↔ _
  rw [View.set_slice_whole, Rect.mem_set_unit]
  exact Iff.rfl

theorem mem_blk_y (t : Fin cfg0.N) (i : S64x192x256.Idx) :
    i ∈ ((cfg0.win 9).blk t).view.set ↔ ∀ a : Fin 3, win0_9.index t a * S64x32x256.size a ≤ (i a).val
      ∧ (i a).val < win0_9.index t a * S64x32x256.size a + S64x32x256.size a := by
  show i ∈ ((View.whole main_v22_1).slice (win0_9.rect t)).set ↔ _
  rw [View.set_slice_whole, Rect.mem_set_unit]
  exact Iff.rfl

/-- Every index of the first output is in the block of the step that holds its row: row r belongs to step r / 32. -/
theorem cover_x (i : S64x192x256.Idx) :
    ∃ t : Fin cfg0.N, (cfg0.win 8).flush t = true ∧ i ∈ ((cfg0.win 8).blk t).view.set := by
  have hi0 : (i 0).val < 64 := (i 0).isLt
  have hi1 : (i 1).val < 192 := (i 1).isLt
  have hi2 : (i 2).val < 256 := (i 2).isLt
  obtain ⟨t, ht⟩ := idx_onto_x ⟨(i 1).val / 32, by omega⟩
  have q0 : win0_8.index t (0 : Fin 3) = 0 := congrFun ht 0
  have q1 : win0_8.index t (1 : Fin 3) = (i 1).val / 32 := congrFun ht 1
  have q2 : win0_8.index t (2 : Fin 3) = 0 := congrFun ht 2
  refine ⟨t, flush0_8 t, ?_⟩
  rw [mem_blk_x]
  intro a
  match a with
  | ⟨0, _⟩ => show win0_8.index t (0 : Fin 3) * 64 ≤ (i 0).val ∧ (i 0).val < win0_8.index t (0 : Fin 3) * 64 + 64; omega
  | ⟨1, _⟩ => show win0_8.index t (1 : Fin 3) * 32 ≤ (i 1).val ∧ (i 1).val < win0_8.index t (1 : Fin 3) * 32 + 32; omega
  | ⟨2, _⟩ => show win0_8.index t (2 : Fin 3) * 256 ≤ (i 2).val ∧ (i 2).val < win0_8.index t (2 : Fin 3) * 256 + 256; omega

theorem cover_y (i : S64x192x256.Idx) :
    ∃ t : Fin cfg0.N, (cfg0.win 9).flush t = true ∧ i ∈ ((cfg0.win 9).blk t).view.set := by
  have hi0 : (i 0).val < 64 := (i 0).isLt
  have hi1 : (i 1).val < 192 := (i 1).isLt
  have hi2 : (i 2).val < 256 := (i 2).isLt
  obtain ⟨t, ht⟩ := idx_onto_y ⟨(i 1).val / 32, by omega⟩
  have q0 : win0_9.index t (0 : Fin 3) = 0 := congrFun ht 0
  have q1 : win0_9.index t (1 : Fin 3) = (i 1).val / 32 := congrFun ht 1
  have q2 : win0_9.index t (2 : Fin 3) = 0 := congrFun ht 2
  refine ⟨t, flush0_9 t, ?_⟩
  rw [mem_blk_y]
  intro a
  match a with
  | ⟨0, _⟩ => show win0_9.index t (0 : Fin 3) * 64 ≤ (i 0).val ∧ (i 0).val < win0_9.index t (0 : Fin 3) * 64 + 64; omega
  | ⟨1, _⟩ => show win0_9.index t (1 : Fin 3) * 32 ≤ (i 1).val ∧ (i 1).val < win0_9.index t (1 : Fin 3) * 32 + 32; omega
  | ⟨2, _⟩ => show win0_9.index t (2 : Fin 3) * 256 ≤ (i 2).val ∧ (i 2).val < win0_9.index t (2 : Fin 3) * 256 + 256; omega

/-! ## The arrays after the run -/

/-- The first output array ends holding arrayX. -/
theorem final_x (c : Dev nD) : (dats m 0 c).arrAt 8 cfg0.N = arrayX m c :=
  (dats m 0 c).arrAt_eq_of_cover 8 (arrayX m c) (fun t _ => flushed_x m c t) cover_x

/-- The second output array ends holding arrayY. -/
theorem final_y (c : Dev nD) : (dats m 0 c).arrAt 9 cfg0.N = arrayY m c :=
  (dats m 0 c).arrAt_eq_of_cover 9 (arrayY m c) (fun t _ => flushed_y m c t) cover_y

end Cert.KernelIdeal.WarpValue

end
-- ==== Proof.RegionEntry.lean ====
/-
  What the region finds. Before the six grid steps the kernel's host code computes, exactly as the reference does, the
  displaced control points, the radial weights and affine coefficients (products with blocks of the inverse system
  matrix), and the two grid coordinate planes; it also reshapes the control points into columns. So each array a window
  stages holds the reference's own stage of the same operations, as a function of the arguments, and a control-point
  column read at row n is the control point n.
-/
import proofs.«159644_j73632919323234_2_alg».proof.Proof.Gen.KernelIdeal.Frame
import proofs.«159644_j73632919323234_2_alg».proof.Proof.Gen.ReferenceIdeal.Read
import proofs.«159644_j73632919323234_2_alg».proof.Proof.LibColumnFlatten
import Idealize.ShloMosaic.Lib.StableHlo.Run

noncomputable section

namespace Cert.KernelIdeal.WarpValue

open Cert.KernelIdeal Cert.KernelIdeal.Gen Idealize.ShloMosaic Idealize.ShloMosaic.TcCoe Idealize.SL.Sem
open Idealize.ShloMosaic.ValueIdx Cert.Lib.ColumnFlatten

variable {F : FTy → Type} [FloatOps F]
variable (m : (ℓ : Loc nD τ sig) → Buf (Elt F) ℓ)

/-- The radial weights of the first plane: the displaced first coordinates against the 25 × 25 block of the inverse matrix. -/
theorem entry_weights_x (c : Dev nD) :
    (V m c main_v9 : S64x25.Idx → Elt F .f32)
      = Cert.ReferenceIdeal.Read.val_main_v9 (F := F) (m ((c : Thread nD τ).loc main_arg0)) (m ((c : Thread nD τ).loc main_arg2)) (m ((c : Thread nD τ).loc main_arg3)) := by
  show StableHlo.after hostOps0 (fun b => m (c, b)) (Proc.devRef .tc main_v9) = _
  after_results
  rfl

/-- The radial weights of the second plane. -/
theorem entry_weights_y (c : Dev nD) :
    (V m c main_v11 : S64x25.Idx → Elt F .f32)
      = Cert.ReferenceIdeal.Read.val_main_v11 (F := F) (m ((c : Thread nD τ).loc main_arg0)) (m ((c : Thread nD τ).loc main_arg2)) (m ((c : Thread nD τ).loc main_arg4)) := by
  show StableHlo.after hostOps0 (fun b => m (c, b)) (Proc.devRef .tc main_v11) = _
  after_results
  rfl

/-- The affine coefficients of the first plane: the same displaced coordinates against the 3 × 25 block. -/
theorem entry_affine_x (c : Dev nD) :
    (V m c main_v13 : S64x3.Idx → Elt F .f32)
      = Cert.ReferenceIdeal.Read.val_main_v13 (F := F) (m ((c : Thread nD τ).loc main_arg0)) (m ((c : Thread nD τ).loc main_arg2)) (m ((c : Thread nD τ).loc main_arg3)) := by
  show StableHlo.after hostOps0 (fun b => m (c, b)) (Proc.devRef .tc main_v13) = _
  after_results
  rfl

/-- The affine coefficients of the second plane. -/
theorem entry_affine_y (c : Dev nD) :
    (V m c main_v15 : S64x3.Idx → Elt F .f32)
      = Cert.ReferenceIdeal.Read.val_main_v15 (F := F) (m ((c : Thread nD τ).loc main_arg0)) (m ((c : Thread nD τ).loc main_arg2)) (m ((c : Thread nD τ).loc main_arg4)) := by
  show StableHlo.after hostOps0 (fun b => m (c, b)) (Proc.devRef .tc main_v15) = _
  after_results
  rfl

/-- The first grid coordinate plane: the last axis of the grid argument at 0. -/
theorem entry_grid_x (c : Dev nD) :
    (V m c main_v17 : S192x256.Idx → Elt F .f32)
      = Cert.ReferenceIdeal.Read.val_main_v17 (F := F) (m ((c : Thread nD τ).loc main_arg1)) := by
  show StableHlo.after hostOps0 (fun b => m (c, b)) (Proc.devRef .tc main_v17) = _
  after_results
  rfl

/-- The second grid coordinate plane: the last axis of the grid argument at 1. -/
theorem entry_grid_y (c : Dev nD) :
    (V m c main_v19 : S192x256.Idx → Elt F .f32)
      = Cert.ReferenceIdeal.Read.val_main_v19 (F := F) (m ((c : Thread nD τ).loc main_arg1)) := by
  show StableHlo.after hostOps0 (fun b => m (c, b)) (Proc.devRef .tc main_v19) = _
  after_results
  rfl

/-- The first control-point column, at row n: the control point's first coordinate. -/
theorem entry_points_x_apply (c : Dev nD) (n : Fin 25) (o : Fin 1) :
    (V m c main_v20 : S25x1.Idx → Elt F .f32) (ix2 n o) = (m ((c : Thread nD τ).loc main_arg3) : S25.Idx → Elt F .f32) (ix1 n) := by
  have e : (V m c main_v20 : S25x1.Idx → Elt F .f32)
      = shapeCast S25x1 (m ((c : Thread nD τ).loc main_arg3) : S25.Idx → Elt F .f32) shapeCasts_S25_S25x1 := by
    show StableHlo.after hostOps0 (fun b => m (c, b)) (Proc.devRef .tc main_v20) = _
    after_results
    rfl
  rw [e]
  exact shapeCast_a_a1_apply _ _ n o

/-- The second control-point column, at row n: the control point's second coordinate. -/
theorem entry_points_y_apply (c : Dev nD) (n : Fin 25) (o : Fin 1) :
    (V m c main_v21 : S25x1.Idx → Elt F .f32) (ix2 n o) = (m ((c : Thread nD τ).loc main_arg4) : S25.Idx → Elt F .f32) (ix1 n) := by
  have e : (V m c main_v21 : S25x1.Idx → Elt F .f32)
      = shapeCast S25x1 (m ((c : Thread nD τ).loc main_arg4) : S25.Idx → Elt F .f32) shapeCasts_S25_S25x1 := by
    show StableHlo.after hostOps0 (fun b => m (c, b)) (Proc.devRef .tc main_v21) = _
    after_results
    rfl
  rw [e]
  exact shapeCast_a_a1_apply _ _ n o

end Cert.KernelIdeal.WarpValue

end
-- ==== Proof.ReferenceWarp.lean ====
/-
  The reference computes the warp. Its two coordinate planes, read index by index through the generated stage lemmas,
  are the specification's warp of the reference's own coefficient arrays (the affine coefficients and radial weights it
  computes from the arguments), its two grid coordinate planes, and the control points. The reference lays the radial
  terms out as [row, column, control point] and contracts the last axis against the weights, which is the
  specification's sum over control points term by term; every other step is a broadcast, a slice or a reshape, read
  at the index it copies from.
-/
import proofs.«159644_j73632919323234_2_alg».proof.Proof.Gen.ReferenceIdeal.Read
import proofs.«159644_j73632919323234_2_alg».proof.Proof.Spec
import Idealize.ShloMosaic.PureOps.Ideal.Laws

noncomputable section

namespace Cert.ReferenceIdeal.WarpValue

open Cert.ReferenceIdeal Cert.ReferenceIdeal.Read Idealize.ShloMosaic Idealize.ShloMosaic.ValueIdx Cert.Warp
open scoped BigOperators

/-- Two indices of a rank-2 shape with equal coordinates are equal. -/
local macro "idx2_rfl" : term => `(funext fun a => Fin.ext (by match a with | ⟨0, _⟩ => (first | rfl | exact Nat.div_one _) | ⟨1, _⟩ => (first | rfl | exact Nat.div_one _)))
/-- Likewise at rank 1. -/
local macro "idx1_rfl" : term => `(funext fun a => Fin.ext (by match a with | ⟨0, _⟩ => rfl))

/-- The radial term as the reference spells it, with the host's logarithm: the specification's. -/
theorem radial_host (u v p q : Ideal .f32) :
    FloatOps.mulf (F := Ideal) (φ := .f32)
      (Scalar.select (FloatOps.cmpf .oeq (FloatOps.addf (FloatOps.mulf (FloatOps.subf u p) (FloatOps.subf u p)) (FloatOps.mulf (FloatOps.subf v q) (FloatOps.subf v q))) (FloatOps.ofBits .f32 0x00000000#32))
        (FloatOps.ofBits .f32 0x3F800000#32) (FloatOps.addf (FloatOps.mulf (FloatOps.subf u p) (FloatOps.subf u p)) (FloatOps.mulf (FloatOps.subf v q) (FloatOps.subf v q))))
      (FloatOps.hostUnary .log (Scalar.select (FloatOps.cmpf .oeq (FloatOps.addf (FloatOps.mulf (FloatOps.subf u p) (FloatOps.subf u p)) (FloatOps.mulf (FloatOps.subf v q) (FloatOps.subf v q))) (FloatOps.ofBits .f32 0x00000000#32))
        (FloatOps.ofBits .f32 0x3F800000#32) (FloatOps.addf (FloatOps.mulf (FloatOps.subf u p) (FloatOps.subf u p)) (FloatOps.mulf (FloatOps.subf v q) (FloatOps.subf v q)))))
      = radial u v p q := rfl

/-- The first result plane: the warp with the coefficients computed from the first half of the displacements. -/
theorem plane_x (x0 : (⟨S64x50, .f32⟩ : BufTy).Contents (Elt Ideal)) (x1 : (⟨S1x192x256x2, .f32⟩ : BufTy).Contents (Elt Ideal))
    (x2 : (⟨S28x28, .f32⟩ : BufTy).Contents (Elt Ideal)) (x3 x4 : (⟨S25, .f32⟩ : BufTy).Contents (Elt Ideal)) :
    val_main_v59 (F := Ideal) x0 x1 x2 x3 x4
      = warp (val_main_v13 (F := Ideal) x0 x2 x3) (val_main_v9 (F := Ideal) x0 x2 x3) (val_main_v17 (F := Ideal) x1) (val_main_v19 (F := Ideal) x1)
          (fun n => x3 (ix1 n)) (fun n => x4 (ix1 n)) := by
  funext i
  obtain ⟨b, r, s, rfl⟩ : ∃ (b : Fin 64) (r : Fin 192) (s : Fin 256), i = ix3 b r s := ⟨i 0, i 1, i 2, eq_ix3 i⟩
  rw [warp_apply]
  simp only [val_main_v59_apply, val_main_v57_apply, val_main_v49_apply, val_main_v48_apply, val_main_v40_apply,
    val_main_v39_apply, val_main_v38_apply, val_main_v47_apply, val_main_v45_apply, val_main_v43_apply, val_main_v42_apply,
    val_main_v41_apply, val_main_v46_apply, val_main_v44_apply, val_main_v56_apply, val_main_v54_apply, val_main_v52_apply,
    val_main_v51_apply, val_main_v50_apply, val_main_v55_apply, val_main_v53_apply, val_main_v58_apply,
    val_main_v37_apply, val_main_v36_apply, val_main_v35_apply, val_main_v34_apply, val_main_v33_apply, val_main_cst_apply,
    val_main_call0_v1_apply, val_main_call0_v0_apply, val_main_cst_0_apply,
    val_main_v32_apply, val_main_v30_apply, val_main_v31_apply, val_main_v24_apply, val_main_v29_apply,
    val_main_v22_apply, val_main_v20_apply, val_main_v23_apply, val_main_v21_apply,
    val_main_v27_apply, val_main_v25_apply, val_main_v28_apply, val_main_v26_apply]
  have a0 : idx_main_v38 (idx_main_v39 (idx_main_v40 (idx_main_v48 (ix3 b r s)))) = ix2 b (0 : Fin 3) := idx2_rfl
  have a1 : idx_main_v41 (idx_main_v42 (idx_main_v43 (idx_main_v45 (ix3 b r s)))) = ix2 b (1 : Fin 3) := idx2_rfl
  have a2 : idx_main_v50 (idx_main_v51 (idx_main_v52 (idx_main_v54 (ix3 b r s)))) = ix2 b (2 : Fin 3) := idx2_rfl
  have g0 : idx_main_v44 (idx_main_v46 (ix3 b r s)) = ix2 r s := idx2_rfl
  have g1 : idx_main_v53 (idx_main_v55 (ix3 b r s)) = ix2 r s := idx2_rfl
  have w : ∀ n : Fin 25, lidx_main_v58 (ix3 b r s) n = ix2 b n := fun n => idx2_rfl
  have u0 : ∀ n : Fin 25, idx_main_v20 (idx_main_v22 (ridx_main_v58 (ix3 b r s) n)) = ix2 r s := fun n => idx2_rfl
  have u1 : ∀ n : Fin 25, idx_main_v25 (idx_main_v27 (ridx_main_v58 (ix3 b r s) n)) = ix2 r s := fun n => idx2_rfl
  have p0 : ∀ n : Fin 25, idx_main_v21 (idx_main_v23 (ridx_main_v58 (ix3 b r s) n)) = ix1 n := fun n => idx1_rfl
  have p1 : ∀ n : Fin 25, idx_main_v26 (idx_main_v28 (ridx_main_v58 (ix3 b r s) n)) = ix1 n := fun n => idx1_rfl
  simp only [a0, a1, a2, g0, g1, w, u0, u1, p0, p1, radial_host]
  rfl

/-- The second result plane: the same warp with the coefficients computed from the second half of the displacements. -/
theorem plane_y (x0 : (⟨S64x50, .f32⟩ : BufTy).Contents (Elt Ideal)) (x1 : (⟨S1x192x256x2, .f32⟩ : BufTy).Contents (Elt Ideal))
    (x2 : (⟨S28x28, .f32⟩ : BufTy).Contents (Elt Ideal)) (x3 x4 : (⟨S25, .f32⟩ : BufTy).Contents (Elt Ideal)) :
    val_main_v81 (F := Ideal) x0 x1 x2 x3 x4
      = warp (val_main_v15 (F := Ideal) x0 x2 x4) (val_main_v11 (F := Ideal) x0 x2 x4) (val_main_v17 (F := Ideal) x1) (val_main_v19 (F := Ideal) x1)
          (fun n => x3 (ix1 n)) (fun n => x4 (ix1 n)) := by
  funext i
  obtain ⟨b, r, s, rfl⟩ : ∃ (b : Fin 64) (r : Fin 192) (s : Fin 256), i = ix3 b r s := ⟨i 0, i 1, i 2, eq_ix3 i⟩
  rw [warp_apply]
  simp only [val_main_v81_apply, val_main_v79_apply, val_main_v71_apply, val_main_v70_apply, val_main_v62_apply,
    val_main_v61_apply, val_main_v60_apply, val_main_v69_apply, val_main_v67_apply, val_main_v65_apply, val_main_v64_apply,
    val_main_v63_apply, val_main_v68_apply, val_main_v66_apply, val_main_v78_apply, val_main_v76_apply, val_main_v74_apply,
    val_main_v73_apply, val_main_v72_apply, val_main_v77_apply, val_main_v75_apply, val_main_v80_apply,
    val_main_v37_apply, val_main_v36_apply, val_main_v35_apply, val_main_v34_apply, val_main_v33_apply, val_main_cst_apply,
    val_main_call0_v1_apply, val_main_call0_v0_apply, val_main_cst_0_apply,
    val_main_v32_apply, val_main_v30_apply, val_main_v31_apply, val_main_v24_apply, val_main_v29_apply,
    val_main_v22_apply, val_main_v20_apply, val_main_v23_apply, val_main_v21_apply,
    val_main_v27_apply, val_main_v25_apply, val_main_v28_apply, val_main_v26_apply]
  have a0 : idx_main_v60 (idx_main_v61 (idx_main_v62 (idx_main_v70 (ix3 b r s)))) = ix2 b (0 : Fin 3) := idx2_rfl
  have a1 : idx_main_v63 (idx_main_v64 (idx_main_v65 (idx_main_v67 (ix3 b r s)))) = ix2 b (1 : Fin 3) := idx2_rfl
  have a2 : idx_main_v72 (idx_main_v73 (idx_main_v74 (idx_main_v76 (ix3 b r s)))) = ix2 b (2 : Fin 3) := idx2_rfl
  have g0 : idx_main_v66 (idx_main_v68 (ix3 b r s)) = ix2 r s := idx2_rfl
  have g1 : idx_main_v75 (idx_main_v77 (ix3 b r s)) = ix2 r s := idx2_rfl
  have w : ∀ n : Fin 25, lidx_main_v80 (ix3 b r s) n = ix2 b n := fun n => idx2_rfl
  have u0 : ∀ n : Fin 25, idx_main_v20 (idx_main_v22 (ridx_main_v80 (ix3 b r s) n)) = ix2 r s := fun n => idx2_rfl
  have u1 : ∀ n : Fin 25, idx_main_v25 (idx_main_v27 (ridx_main_v80 (ix3 b r s) n)) = ix2 r s := fun n => idx2_rfl
  have p0 : ∀ n : Fin 25, idx_main_v21 (idx_main_v23 (ridx_main_v80 (ix3 b r s) n)) = ix1 n := fun n => idx1_rfl
  have p1 : ∀ n : Fin 25, idx_main_v26 (idx_main_v28 (ridx_main_v80 (ix3 b r s) n)) = ix1 n := fun n => idx1_rfl
  simp only [a0, a1, a2, g0, g1, w, u0, u1, p0, p1, radial_host]
  rfl

end Cert.ReferenceIdeal.WarpValue

end
-- ==== Proof.KernelRun.lean ====
/-
  The kernel's run, read. After the region the host code gives each output plane a trailing unit axis and joins the two
  along it. The frame run states that result over the output arrays after the region; those arrays are the warps of
  what the region found (the six blocks tile them), and what the region found are the reference's own stages of the
  arguments, so each output plane is the reference's plane of the same arguments.
-/
import proofs.«159644_j73632919323234_2_alg».proof.Proof.Gen.KernelIdeal.Frame
import proofs.«159644_j73632919323234_2_alg».proof.Proof.Blocks
import proofs.«159644_j73632919323234_2_alg».proof.Proof.RegionEntry
import proofs.«159644_j73632919323234_2_alg».proof.Proof.ReferenceWarp
import Idealize.ShloMosaic.Lib.StableHlo.Run

set_option maxRecDepth 16384

noncomputable section

namespace Cert.KernelIdeal.WarpValue

open Cert.KernelIdeal Cert.KernelIdeal.Gen Idealize.ShloMosaic Idealize.ShloMosaic.TcCoe Idealize.SL.Sem
open Idealize.ShloMosaic.ValueIdx Cert.Warp
open Idealize.ShloMosaic.Pipeline (Dat)

variable (m : (ℓ : Loc nD τ sig) → Buf (Elt Ideal) ℓ) (ρ : Dev nD → PrngReg)

/-- Two planes over (set, row, column) joined along a new last axis of size 2: the result's layout. -/
def stacked (X Y : S64x192x256.Idx → Elt Ideal .f32) : S64x192x256x2.Idx → Elt Ideal .f32 :=
  concatenate S64x192x256x2 3
    [⟨S64x192x256x1, broadcastInDim S64x192x256x1 ![0, 1, 2] bcast_S64x192x256_S64x192x256x1_0_1_2 X⟩,
     ⟨S64x192x256x1, broadcastInDim S64x192x256x1 ![0, 1, 2] bcast_S64x192x256_S64x192x256x1_0_1_2 Y⟩]
    concatenates_S64x192x256x1_S64x192x256x1_S64x192x256x2_d3

/-- The result buffer after the lines that follow the region: the two output arrays, joined. -/
theorem tail_result (c : Dev nD) :
    Pipeline.afterTail₀ cfgs (dats m) 0 (V0 m) [hostOps1] c main_v25 = stacked (arrayX m c) (arrayY m c) := by
  unfold Pipeline.afterTail₀
  show StableHlo.after hostOps1 _ (Proc.devRef .tc main_v25) = _
  after_results
  have hx : Pipeline.withArrays (cfgs 0).spec c (V0 m c) (fun w => (dats m 0 c).arrAt w (cfgs 0).N) (Proc.devRef .tc main_v22_0)
      = arrayX m c := (Pipeline.withArrays_arr spec0 launch0.win.arr_inj c _ _ 8).trans (final_x m c)
  have hy : Pipeline.withArrays (cfgs 0).spec c (V0 m c) (fun w => (dats m 0 c).arrAt w (cfgs 0).N) (Proc.devRef .tc main_v22_1)
      = arrayY m c := (Pipeline.withArrays_arr spec0 launch0.win.arr_inj c _ _ 9).trans (final_y m c)
  rw [hx, hy]
  rfl

/-- The first output array is the reference's first plane of the same arguments. -/
theorem arrayX_eq (c : Dev nD) :
    arrayX m c = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hpx : (fun n : Fin 25 => (V m c main_v20 : S25x1.Idx → Elt Ideal .f32) (ix2 n (0 : Fin 1)))
      = fun n => ((m ((c : Thread nD τ).loc main_arg3)) : S25.Idx → Elt Ideal .f32) (ix1 n) := funext fun n => entry_points_x_apply m c n 0
  have hpy : (fun n : Fin 25 => (V m c main_v21 : S25x1.Idx → Elt Ideal .f32) (ix2 n (0 : Fin 1)))
      = fun n => ((m ((c : Thread nD τ).loc main_arg4)) : S25.Idx → Elt Ideal .f32) (ix1 n) := funext fun n => entry_points_y_apply m c n 0
  unfold arrayX
  rw [hpx, hpy, entry_affine_x, entry_weights_x, entry_grid_x, entry_grid_y]
  exact (Cert.ReferenceIdeal.WarpValue.plane_x _ _ _ _ _).symm

/-- The second output array is the reference's second plane of the same arguments. -/
theorem arrayY_eq (c : Dev nD) :
    arrayY m c = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hpx : (fun n : Fin 25 => (V m c main_v20 : S25x1.Idx → Elt Ideal .f32) (ix2 n (0 : Fin 1)))
      = fun n => ((m ((c : Thread nD τ).loc main_arg3)) : S25.Idx → Elt Ideal .f32) (ix1 n) := funext fun n => entry_points_x_apply m c n 0
  have hpy : (fun n : Fin 25 => (V m c main_v21 : S25x1.Idx → Elt Ideal .f32) (ix2 n (0 : Fin 1)))
      = fun n => ((m ((c : Thread nD τ).loc main_arg4)) : S25.Idx → Elt Ideal .f32) (ix1 n) := funext fun n => entry_points_y_apply m c n 0
  unfold arrayY
  rw [hpx, hpy, entry_affine_y, entry_weights_y, entry_grid_x, entry_grid_y]
  exact (Cert.ReferenceIdeal.WarpValue.plane_y _ _ _ _ _).symm

/-- What the kernel program returns, as a function of the arguments: the reference's two planes, joined. -/
def result (c : Dev nD) : S64x192x256x2.Idx → Elt Ideal .f32 :=
  stacked (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)))

/-- THE KERNEL'S RUN: every weakly fair execution terminates with the result buffer at result and the arguments
    unchanged. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans
        ((tail_result m c).trans (by unfold result; rw [arrayX_eq, arrayY_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.WarpValue

end
-- ==== Proof.lean ====
/-
  A thin-plate-spline warp of a 192 × 256 grid, for 64 sets of control-point displacements: the kernel against the
  reference, on the extended reals.

  Both programs first displace the 25 control points (theta + p), and multiply the displaced coordinates by two blocks
  of the inverse system matrix to get radial weights W [64, 25] and affine coefficients A [64, 3], once for each of the
  two output coordinates; both take the two grid coordinate planes out of the grid argument. These host steps are the
  same operations in the same order in the two programs.

  The kernel then runs six grid steps, each on 32 rows of the grid. For a grid point (u, v) and a control point (p, q)
  it forms d = (u - p)² + (v - q)², replaces d = 0 by 1, and takes d · log d; it multiplies the weights into these radial
  terms (a matrix product into a zero accumulator, laid out [control point, row · 256 + column]) and adds the affine part
  (A₀ + A₁ u) + A₂ v. The reference forms the same radial terms laid out [row, column, control point], contracts the last
  axis against the weights with the weights on the left, and adds the same affine part in the same grouping. Both join
  the two coordinate planes along a new last axis.

  So at every index both results are  ((A₀ + A₁ u) + A₂ v) + Σₙ Wₙ · radial(u, v, pₙ, qₙ)  with the same factors in the same
  places: the two sums differ only in how the summed array is laid out, and a matrix product with a zero accumulator is,
  on the extended reals, the plain sum. No law that needs finite values is used, so the finiteness of the inputs is not
  opened. The kernel's logarithm and the host's denote one function on the extended reals, and a change of float format
  is the identity there. The idealized kernel is the kernel's own text (no rewrite was applied), so that conjunct is
  trivial; the three frames are the generated frame runs.

  Modules: Spec (the warp as one function), ReferenceWarp (the reference's planes are it), KernelBody (what a grid step
  stores is it at the step's rows), Blocks (the six steps tile each output), RegionEntry (the host steps before the
  region), KernelRun (the host steps after it, and the run).
-/
import proofs.«159644_j73632919323234_2_alg».proof.Defs
import proofs.«159644_j73632919323234_2_alg».proof.Proof.Gen.Kernel
import proofs.«159644_j73632919323234_2_alg».proof.Proof.Gen.Kernel.Skeleton
import proofs.«159644_j73632919323234_2_alg».proof.Proof.Gen.Kernel.Launch
import proofs.«159644_j73632919323234_2_alg».proof.Proof.Gen.Kernel.Points
import proofs.«159644_j73632919323234_2_alg».proof.Proof.Gen.Kernel.Frame
import proofs.«159644_j73632919323234_2_alg».proof.Proof.Gen.KernelIdeal
import proofs.«159644_j73632919323234_2_alg».proof.Proof.Gen.KernelIdeal.Skeleton
import proofs.«159644_j73632919323234_2_alg».proof.Proof.Gen.KernelIdeal.Launch
import proofs.«159644_j73632919323234_2_alg».proof.Proof.Gen.KernelIdeal.Points
import proofs.«159644_j73632919323234_2_alg».proof.Proof.Gen.KernelIdeal.Frame
import proofs.«159644_j73632919323234_2_alg».proof.Proof.Gen.ReferenceIdeal
import proofs.«159644_j73632919323234_2_alg».proof.Proof.Gen.ReferenceIdeal.Run
import proofs.«159644_j73632919323234_2_alg».proof.Proof.Gen.ReferenceIdeal.Read
import proofs.«159644_j73632919323234_2_alg».proof.Proof.Gen.Pre_finite_inputs
import proofs.«159644_j73632919323234_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with equal results: the kernel's result is
    the reference's two planes of the kernel's arguments, joined; the reference's is the same joined planes of its own
    arguments, which are the kernel's. -/
theorem algebraic : Cert.algebraic_KernelIdeal_ReferenceIdeal := by
  intro m ρ m' ρ' _ hagree
  refine ⟨fun c => Cert.KernelIdeal.WarpValue.result m c, Cert.KernelIdeal.WarpValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, (hagree c).1, (hagree c).2.1, (hagree c).2.2.1, (hagree c).2.2.2.1,
    (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
